-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x1000000 : Shape := ⟨2, ![3, 1000000]⟩
abbrev S1000000x2 : Shape := ⟨2, ![1000000, 2]⟩
abbrev S258x64 : Shape := ⟨2, ![258, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x2 : S_.BroadcastsInDim S1000000x2 (![] : Fin 0 → Fin S1000000x2.rank)
  reducesTo_S1000000x2_S_d0_1 : S1000000x2.ReducesTo [0, 1] S_
  bcast_S_S258x64 : S_.BroadcastsInDim S258x64 (![] : Fin 0 → Fin S258x64.rank)
  reducesTo_S258x64_S_d0_1 : S258x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x128 .f32) (main_arg8 : FVec F S128 .f32) (main_arg9 : FVec F S128x128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S3x1000000 32) (main_arg2 : FVec F S1000000x2 .f32) (main_arg3 : FVec F S258x64 .f32) (main_arg4 : FVec F S64 .f32) (main_arg5 : FVec F S64x64 .f32) (main_arg6 : FVec F S64 .f32) (main_arg7 : FVec F S64x128 .f32) (main_arg8 : FVec F S128 .f32) (main_arg9 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x2 .f32 := Host.absf main_arg2
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_v9 : FVec F S258x64 .f32 := Host.absf main_arg3
  let main_cst_2 : FVec F S_ .f32 := constant S_ .f32 0x7F800000#32
  let main_v10 : FVec F S258x64 .f32 := broadcastInDim S258x64 ![] bcast_S_S258x64 main_cst_2
  let main_v11 : IVec S258x64 1 := cmpf .olt main_v9 main_v10
  let main_c_3 : IVec S_ 1 := constantI S_ 1 1#1
  let main_v12 : IVec S_ 1 := (fun x v => Host.reduce IntOp.andi x v reducesTo_S258x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S3x1000000 : Shape := ⟨2, ![3, 1000000]⟩
abbrev S1000000x2 : Shape := ⟨2, ![1000000, 2]⟩
abbrev S258x64 : Shape := ⟨2, ![258, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x258 : Shape := ⟨2, ![1000000, 258]⟩
abbrev S1x64 : Shape := ⟨2, ![1, 64]⟩
abbrev S1x128 : Shape := ⟨2, ![1, 128]⟩
abbrev S4000x258 : Shape := ⟨2, ![4000, 258]⟩
abbrev S4000x128 : Shape := ⟨2, ![4000, 128]⟩
abbrev S4000x64 : Shape := ⟨2, ![4000, 64]⟩
abbrev S100000 : Shape := ⟨1, ![100000]⟩
abbrev S100000x1 : Shape := ⟨2, ![100000, 1]⟩
abbrev S2000x128 : Shape := ⟨2, ![2000, 128]⟩
abbrev S2000x1 : Shape := ⟨2, ![2000, 1]⟩

abbrev nBuf : Space → Nat
  | .hbm => 51
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S3x1000000, .i32⟩
  | .hbm, ⟨2, _⟩ => ⟨S1000000x2, .f32⟩
  | .hbm, ⟨3, _⟩ => ⟨S258x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x128, .f32⟩
  | .hbm, ⟨34, _⟩ => ⟨S1000000x258, .f32⟩
  | .hbm, ⟨35, _⟩ => ⟨S1x64, .f32⟩
  | .hbm, ⟨36, _⟩ => ⟨S1x64, .f32⟩
  | .hbm, ⟨37, _⟩ => ⟨S1x128, .f32⟩
  | .hbm, ⟨38, _⟩ => ⟨S1000000x128, .f32⟩
  | .hbm, ⟨39, _⟩ => ⟨S_, .f32⟩
  | .hbm, ⟨40, _⟩ => ⟨S100000x128, .f32⟩
  | .hbm, ⟨41, _⟩ => ⟨S1000000x1, .i32⟩
  | .hbm, ⟨42, _⟩ => ⟨S100000x128, .f32⟩
  | .hbm, ⟨43, _⟩ => ⟨S_, .f32⟩
  | .hbm, ⟨44, _⟩ => ⟨S1000000, .f32⟩
  | .hbm, ⟨45, _⟩ => ⟨S_, .f32⟩
  | .hbm, ⟨46, _⟩ => ⟨S100000, .f32⟩
  | .hbm, ⟨47, _⟩ => ⟨S1000000x1, .i32⟩
  | .hbm, ⟨48, _⟩ => ⟨S100000, .f32⟩
  | .hbm, ⟨49, _⟩ => ⟨S100000x1, .f32⟩
  | .hbm, ⟨50, _⟩ => ⟨S100000x128, .f32⟩
  | .local _ .vmem, ⟨0, _⟩ => ⟨S4000x258, .f32⟩
  | .local _ .vmem, ⟨1, _⟩ => ⟨S4000x258, .f32⟩
  | .local _ .vmem, ⟨2, _⟩ => ⟨S258x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S258x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S3x1000000_S1x1000000_0_0 : S3x1000000.Slices ![0, 0] S1x1000000
  shapeCasts_S1x1000000_S1000000 : S1x1000000.ShapeCasts S1000000
  slices_S3x1000000_S1x1000000_1_0 : S3x1000000.Slices ![1, 0] S1x1000000
  slices_S3x1000000_S1x1000000_2_0 : S3x1000000.Slices ![2, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x2_S1000000x258_d1 : Shape.Concatenates [S1000000x128, S1000000x128, S1000000x2] S1000000x258 1
  shapeCasts_S64_S1x64 : S64.ShapeCasts S1x64
  shapeCasts_S128_S1x128 : S128.ShapeCasts S1x128
  inb_S4000x258_S4000x258_0_0 : ∀ a, (![0, 0] : Fin 2 → Nat) a + S4000x258.size a ≤ S4000x258.size a
  h_S4000x258 : 0 < S4000x258.numel
  shapeCasts_S4000x258_S4000x258 : S4000x258.ShapeCasts S4000x258
  bitsLt_bf16_f32 : FTy.bits .bf16 < FTy.bits .f32
  inb_S258x64_S258x64_0_0 : ∀ a, (![0, 0] : Fin 2 → Nat) a + S258x64.size a ≤ S258x64.size a
  h_S258x64 : 0 < S258x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  gather_S100000x128_S1000000x1_S1000000x128_1_0_n_n_0_1_1128_wf : GatherDims.WF S100000x128 S1000000x1 S1000000x128 [1] [0] [] [0] [] 1 ![1, 128]
  dot_S4000x258_S258x64_S4000x64_1_0_0_1_n_n_wf : DotDims.WF S4000x258 S258x64 S4000x64 [1] [0] [0] [1] [] []
  dot_S4000x64_S64x64_S4000x64_1_0_0_1_n_n_wf : DotDims.WF S4000x64 S64x64 S4000x64 [1] [0] [0] [1] [] []
  dot_S4000x64_S64x128_S4000x128_1_0_0_1_n_n_wf : DotDims.WF S4000x64 S64x128 S4000x128 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x258.size a ≤ S1000000x258.size a
  hwx0_0 : ∀ i : grid0.Coords, EltTy.bits .f32 = 32 ∨ (Rect.block (s := S1000000x258) S4000x258.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S258x64.size a ≤ S258x64.size a
  hwx0_1 : ∀ i : grid0.Coords, EltTy.bits .f32 = 32 ∨ (Rect.block (s := S258x64) S258x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S1000000x128.size a
  hwx0_7 : ∀ i : grid0.Coords, EltTy.bits .f32 = 32 ∨ (Rect.block (s := S1000000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4000x258_S258x64_S4000x64_1_0_0_1_n_n : DotDims S4000x258 S258x64 S4000x64 where
  lhsContracting := [1]
  rhsContracting := [0]
  lhsNonContracting := [0]
  rhsNonContracting := [1]
  lhsBatch := []
  rhsBatch := []
  wf := dot_S4000x258_S258x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v20) S4000x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S258x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3x1000000 : Shape := ⟨2, ![3, 1000000]⟩
abbrev S1000000x2 : Shape := ⟨2, ![1000000, 2]⟩
abbrev S258x64 : Shape := ⟨2, ![258, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x258 : Shape := ⟨2, ![1000000, 258]⟩
abbrev S1000000x64 : Shape := ⟨2, ![1000000, 64]⟩
abbrev S1x64 : Shape := ⟨2, ![1, 64]⟩
abbrev S1x128 : Shape := ⟨2, ![1, 128]⟩
abbrev S100000 : Shape := ⟨1, ![100000]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x1000000, .i32⟩
  | .hbm, ⟨2, _⟩ => ⟨S1000000x2, .f32⟩
  | .hbm, ⟨3, _⟩ => ⟨S258x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x128, .f32⟩
  | .hbm, ⟨34, _⟩ => ⟨S1000000x258, .f32⟩
  | .hbm, ⟨35, _⟩ => ⟨S1000000x64, .f32⟩
  | .hbm, ⟨36, _⟩ => ⟨S1x64, .f32⟩
  | .hbm, ⟨37, _⟩ => ⟨S1000000x64, .f32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S_, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S1000000x64, .f32⟩
  | .hbm, ⟨49, _⟩ => ⟨S1x64, .f32⟩
  | .hbm, ⟨50, _⟩ => ⟨S1000000x64, .f32⟩
  | .hbm, ⟨51, _⟩ => ⟨S1000000x64, .f32⟩
  | .hbm, ⟨52, _⟩ => ⟨S1000000x64, .f32⟩
  | .hbm, ⟨53, _⟩ => ⟨S1000000x64, .f32⟩
  | .hbm, ⟨54, _⟩ => ⟨S_, .f32⟩
  | .hbm, ⟨55, _⟩ => ⟨S1000000x64, .f32⟩
  | .hbm, ⟨56, _⟩ => ⟨S1000000x64, .f32⟩
  | .hbm, ⟨57, _⟩ => ⟨S_, .f32⟩
  | .hbm, ⟨58, _⟩ => ⟨S1000000x64, .f32⟩
  | .hbm, ⟨59, _⟩ => ⟨S1000000x64, .f32⟩
  | .hbm, ⟨60, _⟩ => ⟨S1000000x64, .f32⟩
  | .hbm, ⟨61, _⟩ => ⟨S1000000x128, .f32⟩
  | .hbm, ⟨62, _⟩ => ⟨S1x128, .f32⟩
  | .hbm, ⟨63, _⟩ => ⟨S1000000x128, .f32⟩
  | .hbm, ⟨64, _⟩ => ⟨S1000000x128, .f32⟩
  | .hbm, ⟨65, _⟩ => ⟨S_, .f32⟩
  | .hbm, ⟨66, _⟩ => ⟨S100000x128, .f32⟩
  | .hbm, ⟨67, _⟩ => ⟨S1000000x1, .i32⟩
  | .hbm, ⟨68, _⟩ => ⟨S100000x128, .f32⟩
  | .hbm, ⟨69, _⟩ => ⟨S_, .f32⟩
  | .hbm, ⟨70, _⟩ => ⟨S1000000, .f32⟩
  | .hbm, ⟨71, _⟩ => ⟨S_, .f32⟩
  | .hbm, ⟨72, _⟩ => ⟨S100000, .f32⟩
  | .hbm, ⟨73, _⟩ => ⟨S1000000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_3 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_5 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩

abbrev nD : Nat := 1
abbrev τ : Topo := Topo.v7x

variable {F : FTy → Type} [FloatOps F]

class Facts₀ : Prop where
  slices_S3x1000000_S1x1000000_0_0 : S3x1000000.Slices ![0, 0] S1x1000000
  shapeCasts_S1x1000000_S1000000 : S1x1000000.ShapeCasts S1000000
  slices_S3x1000000_S1x1000000_1_0 : S3x1000000.Slices ![1, 0] S1x1000000
  slices_S3x1000000_S1x1000000_2_0 : S3x1000000.Slices ![2, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x2_S1000000x258_d1 : Shape.Concatenates [S1000000x128, S1000000x128, S1000000x2] S1000000x258 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  dot_S1000000x258_S258x64_S1000000x64_1_0_0_1_n_n_wf : DotDims.WF S1000000x258 S258x64 S1000000x64 [1] [0] [0] [1] [] []
  dot_S1000000x64_S64x64_S1000000x64_1_0_0_1_n_n_wf : DotDims.WF S1000000x64 S64x64 S1000000x64 [1] [0] [0] [1] [] []
  dot_S1000000x64_S64x128_S1000000x128_1_0_0_1_n_n_wf : DotDims.WF S1000000x64 S64x128 S1000000x128 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x258_S258x64_S1000000x64_1_0_0_1_n_n : DotDims S1000000x258 S258x64 S1000000x64 where
  lhsContracting := [1]
  rhsContracting := [0]
  lhsNonContracting := [0]
  rhsNonContracting := [1]
  lhsBatch := []
  rhsBatch := []
  wf := dot_S1000000x258_S258x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KbSetup.lean ====
/-
  The two kernel regions' proof data and the buffer contents between @main's items.

  Region 0 runs the edge network a block of 4000 edges at a time over a grid of 250 points; region 1 runs the node
  update a block of 2000 nodes at a time over 50 points. At a point each input window's staging buffer holds the
  block of its array that the point's index map selects, and the body leaves in the output window's buffer one value
  computed from those blocks. Between items, a core's unscoped buffers hold: the launch memory; then what the
  first stretch of host operations writes; then region 0's output array at what its write-backs leave; then what
  the second stretch writes; then region 1's output array at what its write-backs leave.
-/
import proofs.«115480_j34093450396330_1_alg».proof.Proof.Gen.Kernel.Launch
import proofs.«115480_j34093450396330_1_alg».proof.Proof.Gen.Kernel.Skeleton
import proofs.«115480_j34093450396330_1_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

-- a core's buffer contents when a region is entered
variable (V : (c : Dev nD) → (b : Ref sig .tc) → Buf (Elt F) ((c : Thread nD τ).loc b))

/-- Region 0: the block of window `w`'s array that grid point `t` selects. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Region 1: the block of window `w`'s array that grid point `t` selects. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Region 0's proof data on core `c`: the arrays as the region finds them; after the body at point `t` each of the
    seven input windows still holds its block and the output window holds the network's value on those blocks. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => k0_pay1 (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

/-- Region 1's proof data on core `c`: the three input windows keep their blocks, the output window holds the node
    update's value on them. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay1 (blk1 V c 0 t) (blk1 V c 1 t) (blk1 V c 2 t)
  Φ _ := Pipeline.ΦA spec1 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t
    = k0_pay1 (blk0 V c 0 t) (blk0 V c 1 t) (blk0 V c 2 t) (blk0 V c 3 t) (blk0 V c 4 t) (blk0 V c 5 t) (blk0 V c 6 t) := by
  dsimp only [dat0]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t
    = k1_pay1 (blk1 V c 0 t) (blk1 V c 1 t) (blk1 V c 2 t) := by
  dsimp only [dat1]

end Regions

/-! ## The buffer contents between @main's items -/

variable (m : (ℓ : Loc nD τ sig) → Buf (Elt F) ℓ)

/-- At launch. -/
abbrev W0 : Dev nD → Valuation τ sig (Elt F) := fun c b => m (c, b)
/-- After the first stretch of host operations: what region 0 is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch: what region 1 is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit, which is @main's end. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

end Cert.Kernel.Hand

end
-- ==== Proof.KbBody0.lean ====
/-
  The edge network's body on whole staging buffers.

  The body reads each of its seven input buffers whole, computes one [4000, 128] value from them, reads the output
  buffer (a value it never uses) and overwrites the output buffer whole with the computed value. So, started with
  the inputs at contents x0 … x6 and the output at anything, it ends with the inputs as they were and the output
  holding the network's value on x0 … x6.
-/
import proofs.«115480_j34093450396330_1_alg».proof.Proof.KbSetup
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel0 (c : Dev nD) (E : Set ℕ) (i : grid0.Coords)
    (a1 : Memref sig .tc .vmem S4000x258 .f32) (h1 : a1.IsWhole) (a2 : Memref sig .tc .vmem S258x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S64x128 .f32) (h6 : a6.IsWhole)
    (a7 : Memref sig .tc .vmem S1x128 .f32) (h7 : a7.IsWhole) (a8 : Memref sig .tc .vmem S4000x128 .f32) (h8 : a8.IsWhole)
    (x0 : Vec F S4000x258 .f32) (x1 : Vec F S258x64 .f32) (x2 : Vec F S1x64 .f32) (x3 : Vec F S64x64 .f32)
    (x4 : Vec F S1x64 .f32) (x5 : Vec F S64x128 .f32) (x6 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6
            ∗ owns (c : Thread nD τ) a8 fullShare (k0_pay1 x0 x1 x2 x3 x4 x5 x6)) -∗ K ⟨⟩))
      ⊢ wp frame (wpE (defs₀ (F := F)) Variants.none c none) E (cc0_kernel i a1 h1 a2 h2 a3 h3 a4 h4 a5 h5 a6 h6 a7 h7 a8 h8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  have hz : (![0, 0] : Fin 2 → Nat) = fun _ => 0 := by funext a; fin_cases a <;> rfl
  refine (View.read_writes_eq_canon _ _ _ (fun y => ⟨_, List.mem_singleton_self _, View.mem_set_unit_zero hz inb_S4000x128_S4000x128_0_0 y⟩)).trans ?_
  rw [View.canon_unit_zero hz]
  simp only [View.readAt_eq_ld, View.ld_unit_zero (S := S4000x258) hz, View.ld_unit_zero (S := S258x64) hz, View.ld_unit_zero (S := S1x64) hz, View.ld_unit_zero (S := S64x64) hz, View.ld_unit_zero (S := S64x128) hz, View.ld_unit_zero (S := S1x128) hz]

end Cert.Kernel.Hand

end
-- ==== Proof.KbBody1.lean ====
/-
  The node update's body on whole staging buffers.

  The body reads its three input buffers whole — the summed messages [2000, 128], the counts [2000, 1], the matrix
  [128, 128] —, computes one [2000, 128] value from them, reads the output buffer (a value it never uses) and
  overwrites the output buffer whole with the computed value.
-/
import proofs.«115480_j34093450396330_1_alg».proof.Proof.KbSetup
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel1 (c : Dev nD) (E : Set ℕ) (i : grid1.Coords)
    (a1 : Memref sig .tc .vmem S2000x128 .f32) (h1 : a1.IsWhole) (a2 : Memref sig .tc .vmem S2000x1 .f32) (h2 : a2.IsWhole)
    (a3 : Memref sig .tc .vmem S128x128 .f32) (h3 : a3.IsWhole) (a4 : Memref sig .tc .vmem S2000x128 .f32) (h4 : a4.IsWhole)
    (y0 : Vec F S2000x128 .f32) (y1 : Vec F S2000x1 .f32) (y2 : Vec F S128x128 .f32) (K : PUnit → sProp 𝕄) :
    iprop(owns (c : Thread nD τ) a1 fullShare y0 ∗ owns (c : Thread nD τ) a2 fullShare y1 ∗ owns (c : Thread nD τ) a3 fullShare y2
        ∗ (∃ d, owns (c : Thread nD τ) a4 fullShare d)
        ∗ (iprop(owns (c : Thread nD τ) a1 fullShare y0 ∗ owns (c : Thread nD τ) a2 fullShare y1 ∗ owns (c : Thread nD τ) a3 fullShare y2
            ∗ owns (c : Thread nD τ) a4 fullShare (k1_pay1 y0 y1 y2)) -∗ K ⟨⟩))
      ⊢ wp frame (wpE (defs₀ (F := F)) Variants.none c none) E (cc1_kernel i a1 h1 a2 h2 a3 h3 a4 h4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ (fun y => ⟨_, List.mem_singleton_self _, View.mem_set_unit_zero hz inb_S2000x128_S2000x128_0_0 y⟩)).trans ?_
  rw [View.canon_unit_zero hz]
  simp only [View.readAt_eq_ld, View.ld_unit_zero (S := S2000x128) hz, View.ld_unit_zero (S := S2000x1) hz, View.ld_unit_zero (S := S128x128) hz]

end Cert.Kernel.Hand

end
-- ==== Proof.KbOblig.lean ====
/-
  The body obligation of each region: at every grid point the body, handed each window's current staging buffer,
  leaves what the region's proof data says.

  An input window's current buffer holds the block of its array that the point selects, whether the pipeline fetched
  it at this point or the block index has not moved since it did; the output window's buffer holds anything. The
  body's triple on whole buffers then gives the inputs back unchanged and the output at the body's value on the
  input blocks; the region's invariant and the core's dues pass through unread.
-/
import proofs.«115480_j34093450396330_1_alg».proof.Proof.KbBody0
import proofs.«115480_j34093450396330_1_alg».proof.Proof.KbBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: every input window's buffer holds its block -/

theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
      (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
      (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl)
      (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl)
      (fun t => by rw [after0_4]; unfold Dat.blockOf blk0; rw [A_eq0]; try rfl) t d).trans
    (by unfold Dat.fetched Dat.blockOf blk0; rw [A_eq0]; try rfl)
theorem before0_5 (c : Dev nD) (t : Fin cfg0.N) (d) : (dat0 V c).before 5 t d = blk0 V c 5 t :=
  ((dat0 V c).before_in_eq_fetched 5 rfl (fun _ => rfl) (fun _ _ _ => rfl)
      (fun t => by rw [after0_5]; unfold Dat.blockOf blk0; rw [A_eq0]; try rfl) t d).trans
    (by unfold Dat.fetched Dat.blockOf blk0; rw [A_eq0]; try rfl)
theorem before0_6 (c : Dev nD) (t : Fin cfg0.N) (d) : (dat0 V c).before 6 t d = blk0 V c 6 t :=
  ((dat0 V c).before_in_eq_fetched 6 rfl (fun _ => rfl) (fun _ _ _ => rfl)
      (fun t => by rw [after0_6]; unfold Dat.blockOf blk0; rw [A_eq0]; try rfl) t d).trans
    (by unfold Dat.fetched Dat.blockOf blk0; rw [A_eq0]; try rfl)

/-! ## Region 1: every input window's buffer holds its block -/

theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)

/-! ## What the body is called with at a point, and what it returns -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-! ## The body at any point -/

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The library's obligation, at every point -/

theorem body_obligation0 (c : Dev nD) : BodyObligation (dat0 (F := F) V c) (defs₀ (F := F)) Variants.none () Set.univ := fun t => by
  rw [bigSep_W0, bigSep_W0]
  exact sound_body0 V c t

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbRun.lean ====
/-
  The run of @main: a stretch of host operations, the edge-network region, a second stretch, the node-update region.

  Each stretch is a segment that takes every unscoped buffer from the contents before it to the contents after it;
  each region is a segment that does the same around its pipeline. Chained from the launch, they give: every weakly
  fair execution terminates, nothing faulting, and at the end every unscoped buffer holds the last boundary's
  contents. No stretch and no region writes an argument array, so each ends as launched; the result array ends at
  what the node-update region's write-backs leave.
-/
import proofs.«115480_j34093450396330_1_alg».proof.Proof.KbOblig
import proofs.«115480_j34093450396330_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit leaves in the unscoped buffers -/

theorem arrs_at_exit0 (c : Dev nD) (w : Fin cfg0.W) : (dat0 (Hand.V1 m) c).arrAt w cfg0.N = Hand.V2 m c (Pipeline.arrRef spec0 w) :=
  (W2_arr m c w).symm
theorem rest_at_exit0 (c : Dev nD) : ∀ b, b ∉ Finset.univ.image (Pipeline.arrRef spec0) → Hand.V2 m c b = Hand.V1 m c b :=
  fun b hb => W2_of_ne m c b fun w e => hb (Finset.mem_image.mpr ⟨w, Finset.mem_univ _, e⟩)
theorem arrs_at_exit1 (c : Dev nD) (w : Fin cfg1.W) : (dat1 (Hand.V3 m) c).arrAt w cfg1.N = Hand.V4 m c (Pipeline.arrRef spec1 w) :=
  (W4_arr m c w).symm
theorem rest_at_exit1 (c : Dev nD) : ∀ b, b ∉ Finset.univ.image (Pipeline.arrRef spec1) → Hand.V4 m c b = Hand.V3 m c b :=
  fun b hb => W4_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Hand.V1 m) c
  | ⟨1, _⟩ => fun c => dat1 (Hand.V3 m) c

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (Hand.W4 m c) ∗ ∃ r, prngReg c r)

/-! ## The regions as segments -/

set_option backward.isDefEq.respectTransparency.types false in
/-- Region 0 as a segment: entered with every unscoped buffer at the contents before it, left with them at the
    contents after it. Its windows' arrays are split out of the unscoped buffers at entry and put back, at what the
    pipeline leaves, at exit; the generator register goes into the region's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Hand.V1 m) c).loose
  hwaits := Pipeline.hwaits_of_owed_zero _ _ _ _ L lv 0 fun _ _ => rfl
  pre c := iprop(StableHlo.held (c : Thread nD τ) (Pipeline.ucRefs τ sig) (Hand.W1 m c) ∗ R c)
  post c := iprop(StableHlo.held (c : Thread nD τ) (Pipeline.ucRefs τ sig) (Hand.W2 m c) ∗ R c)
  X c := iprop(∃ r, prngReg c r)
  Y c := iprop(∃ r, prngReg c r)
  Z c := Pipeline.unscopedRest (Ix := Unit) (Name := ℕ) (U := UR sig nD τ) (Lvl := ℕ) spec0 c (Hand.V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Hand.V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Hand.V1 m c) (Hand.V2 m c) ((pdats m 0 c).arrAt · cfg0.N) (arrs_at_exit0 m c) (rest_at_exit0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its windows' arrays are split out of the unscoped buffers at entry and put back, at what the
    pipeline leaves, at exit; the generator register goes into the region's invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Hand.V3 m) c).loose
  hwaits := Pipeline.hwaits_of_owed_zero _ _ _ _ L lv 1 fun _ _ => rfl
  pre c := iprop(StableHlo.held (c : Thread nD τ) (Pipeline.ucRefs τ sig) (Hand.W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Hand.V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Hand.V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Hand.V3 m c) (Hand.V4 m c) ((pdats m 1 c).arrAt · cfg1.N) (arrs_at_exit1 m c) (rest_at_exit1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Hand.W0 m)),
    .region (reg0 m),
    .host (hseg hostOps1 hostOps1_sub Gen.hostOps1_fresh (Hand.W2 m)),
    .region (reg1 m) ]

theorem main_run (c : Dev nD) : main (F := F) c = Pipeline.Seg.run (Hand.segs m) := (main_chain c).trans (by chain_rfl)

set_option backward.isDefEq.respectTransparency.types false in
/-- From any memory with zero counters every weakly fair execution of @main terminates, nothing faulting, and in
    every final state each unscoped buffer of each core holds the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = Hand.W4 m c b) :=
  Pipeline.θ_run_regions_kit (pcfgs (F := F)) adm (pdats m) () cellOf_inj emb₁ defs₀ 𝒱₀ L lv m ρ main (Hand.segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Hand.W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Hand.W0 m c)
        from Pipeline.unscopedBufs_held c (Hand.W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Hand.W4 m c b)
    (hfin := fun c s' => by
      iintro ⟨⟨Hh, -⟩, HSI⟩
      unfold StableHlo.held
      imodintro
      iapply (pointsTo_read_all (Pipeline.ucRefs τ sig) (fun b => (((c : Thread nD τ)).1, b)) (Hand.W4 m c) s')
      isplitl [Hh] <;> iassumption)
    (hQ := fun _ h => h)

/-! ## The arguments end as launched -/

/-- A buffer that neither stretch writes and that is no window's array of either region ends as launched. -/
theorem W4_untouched (c : Dev nD) (b : Ref sig .tc) (h4 : ∀ w, Pipeline.arrRef spec1 w ≠ b) (h3 : b ∉ Gen.hostOps1_W)
    (h2 : ∀ w, Pipeline.arrRef spec0 w ≠ b) (h1 : b ∉ Gen.hostOps0_W) :
    Hand.W4 m c (Proc.devRef .tc b) = m ((c : Thread nD τ).loc b) :=
  (W4_of_ne m c b h4).trans <| (StableHlo.after_of_writes_sub hostOps1 _ Gen.hostOps1_writes h3).trans <|
    (W2_of_ne m c b h2).trans <| (StableHlo.after_of_writes_sub hostOps0 _ Gen.hostOps0_writes h1).trans rfl

/-- An input window's array of region 0 that nothing else writes ends as launched. -/
theorem W4_input0 (c : Dev nD) (w : Fin cfg0.W) (hin : (cfg0.win w).isOut = false)
    (h4 : ∀ w', Pipeline.arrRef spec1 w' ≠ Pipeline.arrRef spec0 w) (h3 : Pipeline.arrRef spec0 w ∉ Gen.hostOps1_W)
    (h1 : Pipeline.arrRef spec0 w ∉ Gen.hostOps0_W) :
    Hand.W4 m c (Proc.devRef .tc (Pipeline.arrRef spec0 w)) = m ((c : Thread nD τ).loc (Pipeline.arrRef spec0 w)) :=
  (W4_of_ne m c _ h4).trans <| (StableHlo.after_of_writes_sub hostOps1 _ Gen.hostOps1_writes h3).trans <|
    (W2_arr m c w).trans <| ((dat0 (Hand.V1 m) c).arrAt_in w hin _).trans <| (A_eq0 (Hand.V1 m) c w).trans <|
    (StableHlo.after_of_writes_sub hostOps0 _ Gen.hostOps0_writes h1).trans rfl

theorem W4_main_arg0 (c : Dev nD) : Hand.W4 m c (Proc.devRef .tc main_arg0) = m ((c : Thread nD τ).loc main_arg0) :=
  W4_untouched m c main_arg0 (by decide) (by decide) (by decide) (by decide)
theorem W4_main_arg1 (c : Dev nD) : Hand.W4 m c (Proc.devRef .tc main_arg1) = m ((c : Thread nD τ).loc main_arg1) :=
  W4_untouched m c main_arg1 (by decide) (by decide) (by decide) (by decide)
theorem W4_main_arg2 (c : Dev nD) : Hand.W4 m c (Proc.devRef .tc main_arg2) = m ((c : Thread nD τ).loc main_arg2) :=
  W4_untouched m c main_arg2 (by decide) (by decide) (by decide) (by decide)
theorem W4_main_arg4 (c : Dev nD) : Hand.W4 m c (Proc.devRef .tc main_arg4) = m ((c : Thread nD τ).loc main_arg4) :=
  W4_untouched m c main_arg4 (by decide) (by decide) (by decide) (by decide)
theorem W4_main_arg6 (c : Dev nD) : Hand.W4 m c (Proc.devRef .tc main_arg6) = m ((c : Thread nD τ).loc main_arg6) :=
  W4_untouched m c main_arg6 (by decide) (by decide) (by decide) (by decide)
theorem W4_main_arg8 (c : Dev nD) : Hand.W4 m c (Proc.devRef .tc main_arg8) = m ((c : Thread nD τ).loc main_arg8) :=
  W4_untouched m c main_arg8 (by decide) (by decide) (by decide) (by decide)
theorem W4_main_arg3 (c : Dev nD) : Hand.W4 m c (Proc.devRef .tc main_arg3) = m ((c : Thread nD τ).loc main_arg3) :=
  W4_input0 m c 1 rfl (by decide) (by decide) (by decide)
theorem W4_main_arg5 (c : Dev nD) : Hand.W4 m c (Proc.devRef .tc main_arg5) = m ((c : Thread nD τ).loc main_arg5) :=
  W4_input0 m c 3 rfl (by decide) (by decide) (by decide)
theorem W4_main_arg7 (c : Dev nD) : Hand.W4 m c (Proc.devRef .tc main_arg7) = m ((c : Thread nD τ).loc main_arg7) :=
  W4_input0 m c 5 rfl (by decide) (by decide) (by decide)
/-- The last matrix is an input window's array of region 1 and nothing writes it. -/
theorem W4_main_arg9 (c : Dev nD) : Hand.W4 m c (Proc.devRef .tc main_arg9) = m ((c : Thread nD τ).loc main_arg9) :=
  (W4_arr m c 2).trans <| ((dat1 (Hand.V3 m) c).arrAt_in 2 rfl _).trans <| (A_eq1 (Hand.V3 m) c 2).trans <|
    (StableHlo.after_of_writes_sub hostOps1 _ Gen.hostOps1_writes (by decide : main_arg9 ∉ Gen.hostOps1_W)).trans <|
    (W2_of_ne m c main_arg9 (by decide)).trans <|
    (StableHlo.after_of_writes_sub hostOps0 _ Gen.hostOps0_writes (by decide : main_arg9 ∉ Gen.hostOps0_W)).trans rfl

/-! ## The frame, and the run with the result named -/

/-- Every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c)⟩) (run_bufs m ρ)

end Cert.Kernel.Hand

end
-- ==== Proof.KiSetup.lean ====
/-
  The two kernel regions' proof data and the buffer contents between @main's items.

  Region 0 runs the edge network a block of 4000 edges at a time over a grid of 250 points; region 1 runs the node
  update a block of 2000 nodes at a time over 50 points. At a point each input window's staging buffer holds the
  block of its array that the point's index map selects, and the body leaves in the output window's buffer one value
  computed from those blocks. Between items, a core's unscoped buffers hold: the launch memory; then what the
  first stretch of host operations writes; then region 0's output array at what its write-backs leave; then what
  the second stretch writes; then region 1's output array at what its write-backs leave.
-/
import proofs.«115480_j34093450396330_1_alg».proof.Proof.Gen.KernelIdeal.Launch
import proofs.«115480_j34093450396330_1_alg».proof.Proof.Gen.KernelIdeal.Skeleton
import proofs.«115480_j34093450396330_1_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

-- a core's buffer contents when a region is entered
variable (V : (c : Dev nD) → (b : Ref sig .tc) → Buf (Elt F) ((c : Thread nD τ).loc b))

/-- Region 0: the block of window `w`'s array that grid point `t` selects. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Region 1: the block of window `w`'s array that grid point `t` selects. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Region 0's proof data on core `c`: the arrays as the region finds them; after the body at point `t` each of the
    seven input windows still holds its block and the output window holds the network's value on those blocks. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => k0_pay1 (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

/-- Region 1's proof data on core `c`: the three input windows keep their blocks, the output window holds the node
    update's value on them. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay1 (blk1 V c 0 t) (blk1 V c 1 t) (blk1 V c 2 t)
  Φ _ := Pipeline.ΦA spec1 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t
    = k0_pay1 (blk0 V c 0 t) (blk0 V c 1 t) (blk0 V c 2 t) (blk0 V c 3 t) (blk0 V c 4 t) (blk0 V c 5 t) (blk0 V c 6 t) := by
  dsimp only [dat0]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t
    = k1_pay1 (blk1 V c 0 t) (blk1 V c 1 t) (blk1 V c 2 t) := by
  dsimp only [dat1]

end Regions

/-! ## The buffer contents between @main's items -/

variable (m : (ℓ : Loc nD τ sig) → Buf (Elt F) ℓ)

/-- At launch. -/
abbrev W0 : Dev nD → Valuation τ sig (Elt F) := fun c b => m (c, b)
/-- After the first stretch of host operations: what region 0 is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch: what region 1 is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit, which is @main's end. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

end Cert.KernelIdeal.Hand

end
-- ==== Proof.KiBody0.lean ====
/-
  The edge network's body on whole staging buffers.

  The body reads each of its seven input buffers whole, computes one [4000, 128] value from them, reads the output
  buffer (a value it never uses) and overwrites the output buffer whole with the computed value. So, started with
  the inputs at contents x0 … x6 and the output at anything, it ends with the inputs as they were and the output
  holding the network's value on x0 … x6.
-/
import proofs.«115480_j34093450396330_1_alg».proof.Proof.KiSetup
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel0 (c : Dev nD) (E : Set ℕ) (i : grid0.Coords)
    (a1 : Memref sig .tc .vmem S4000x258 .f32) (h1 : a1.IsWhole) (a2 : Memref sig .tc .vmem S258x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S64x128 .f32) (h6 : a6.IsWhole)
    (a7 : Memref sig .tc .vmem S1x128 .f32) (h7 : a7.IsWhole) (a8 : Memref sig .tc .vmem S4000x128 .f32) (h8 : a8.IsWhole)
    (x0 : Vec F S4000x258 .f32) (x1 : Vec F S258x64 .f32) (x2 : Vec F S1x64 .f32) (x3 : Vec F S64x64 .f32)
    (x4 : Vec F S1x64 .f32) (x5 : Vec F S64x128 .f32) (x6 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6
            ∗ owns (c : Thread nD τ) a8 fullShare (k0_pay1 x0 x1 x2 x3 x4 x5 x6)) -∗ K ⟨⟩))
      ⊢ wp frame (wpE (defs₀ (F := F)) Variants.none c none) E (cc0_kernel i a1 h1 a2 h2 a3 h3 a4 h4 a5 h5 a6 h6 a7 h7 a8 h8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  have hz : (![0, 0] : Fin 2 → Nat) = fun _ => 0 := by funext a; fin_cases a <;> rfl
  refine (View.read_writes_eq_canon _ _ _ (fun y => ⟨_, List.mem_singleton_self _, View.mem_set_unit_zero hz inb_S4000x128_S4000x128_0_0 y⟩)).trans ?_
  rw [View.canon_unit_zero hz]
  simp only [View.readAt_eq_ld, View.ld_unit_zero (S := S4000x258) hz, View.ld_unit_zero (S := S258x64) hz, View.ld_unit_zero (S := S1x64) hz, View.ld_unit_zero (S := S64x64) hz, View.ld_unit_zero (S := S64x128) hz, View.ld_unit_zero (S := S1x128) hz]

end Cert.KernelIdeal.Hand

end
-- ==== Proof.KiBody1.lean ====
/-
  The node update's body on whole staging buffers.

  The body reads its three input buffers whole — the summed messages [2000, 128], the counts [2000, 1], the matrix
  [128, 128] —, computes one [2000, 128] value from them, reads the output buffer (a value it never uses) and
  overwrites the output buffer whole with the computed value.
-/
import proofs.«115480_j34093450396330_1_alg».proof.Proof.KiSetup
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel1 (c : Dev nD) (E : Set ℕ) (i : grid1.Coords)
    (a1 : Memref sig .tc .vmem S2000x128 .f32) (h1 : a1.IsWhole) (a2 : Memref sig .tc .vmem S2000x1 .f32) (h2 : a2.IsWhole)
    (a3 : Memref sig .tc .vmem S128x128 .f32) (h3 : a3.IsWhole) (a4 : Memref sig .tc .vmem S2000x128 .f32) (h4 : a4.IsWhole)
    (y0 : Vec F S2000x128 .f32) (y1 : Vec F S2000x1 .f32) (y2 : Vec F S128x128 .f32) (K : PUnit → sProp 𝕄) :
    iprop(owns (c : Thread nD τ) a1 fullShare y0 ∗ owns (c : Thread nD τ) a2 fullShare y1 ∗ owns (c : Thread nD τ) a3 fullShare y2
        ∗ (∃ d, owns (c : Thread nD τ) a4 fullShare d)
        ∗ (iprop(owns (c : Thread nD τ) a1 fullShare y0 ∗ owns (c : Thread nD τ) a2 fullShare y1 ∗ owns (c : Thread nD τ) a3 fullShare y2
            ∗ owns (c : Thread nD τ) a4 fullShare (k1_pay1 y0 y1 y2)) -∗ K ⟨⟩))
      ⊢ wp frame (wpE (defs₀ (F := F)) Variants.none c none) E (cc1_kernel i a1 h1 a2 h2 a3 h3 a4 h4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ (fun y => ⟨_, List.mem_singleton_self _, View.mem_set_unit_zero hz inb_S2000x128_S2000x128_0_0 y⟩)).trans ?_
  rw [View.canon_unit_zero hz]
  simp only [View.readAt_eq_ld, View.ld_unit_zero (S := S2000x128) hz, View.ld_unit_zero (S := S2000x1) hz, View.ld_unit_zero (S := S128x128) hz]

end Cert.KernelIdeal.Hand

end
-- ==== Proof.KiOblig.lean ====
/-
  The body obligation of each region: at every grid point the body, handed each window's current staging buffer,
  leaves what the region's proof data says.

  An input window's current buffer holds the block of its array that the point selects, whether the pipeline fetched
  it at this point or the block index has not moved since it did; the output window's buffer holds anything. The
  body's triple on whole buffers then gives the inputs back unchanged and the output at the body's value on the
  input blocks; the region's invariant and the core's dues pass through unread.
-/
import proofs.«115480_j34093450396330_1_alg».proof.Proof.KiBody0
import proofs.«115480_j34093450396330_1_alg».proof.Proof.KiBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: every input window's buffer holds its block -/

theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
      (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
      (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl)
      (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl)
      (fun t => by rw [after0_4]; unfold Dat.blockOf blk0; rw [A_eq0]; try rfl) t d).trans
    (by unfold Dat.fetched Dat.blockOf blk0; rw [A_eq0]; try rfl)
theorem before0_5 (c : Dev nD) (t : Fin cfg0.N) (d) : (dat0 V c).before 5 t d = blk0 V c 5 t :=
  ((dat0 V c).before_in_eq_fetched 5 rfl (fun _ => rfl) (fun _ _ _ => rfl)
      (fun t => by rw [after0_5]; unfold Dat.blockOf blk0; rw [A_eq0]; try rfl) t d).trans
    (by unfold Dat.fetched Dat.blockOf blk0; rw [A_eq0]; try rfl)
theorem before0_6 (c : Dev nD) (t : Fin cfg0.N) (d) : (dat0 V c).before 6 t d = blk0 V c 6 t :=
  ((dat0 V c).before_in_eq_fetched 6 rfl (fun _ => rfl) (fun _ _ _ => rfl)
      (fun t => by rw [after0_6]; unfold Dat.blockOf blk0; rw [A_eq0]; try rfl) t d).trans
    (by unfold Dat.fetched Dat.blockOf blk0; rw [A_eq0]; try rfl)

/-! ## Region 1: every input window's buffer holds its block -/

theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)

/-! ## What the body is called with at a point, and what it returns -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-! ## The body at any point -/

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The library's obligation, at every point -/

theorem body_obligation0 (c : Dev nD) : BodyObligation (dat0 (F := F) V c) (defs₀ (F := F)) Variants.none () Set.univ := fun t => by
  rw [bigSep_W0, bigSep_W0]
  exact sound_body0 V c t

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The run of @main: a stretch of host operations, the edge-network region, a second stretch, the node-update region.

  Each stretch is a segment that takes every unscoped buffer from the contents before it to the contents after it;
  each region is a segment that does the same around its pipeline. Chained from the launch, they give: every weakly
  fair execution terminates, nothing faulting, and at the end every unscoped buffer holds the last boundary's
  contents. No stretch and no region writes an argument array, so each ends as launched; the result array ends at
  what the node-update region's write-backs leave.
-/
import proofs.«115480_j34093450396330_1_alg».proof.Proof.KiOblig
import proofs.«115480_j34093450396330_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit leaves in the unscoped buffers -/

theorem arrs_at_exit0 (c : Dev nD) (w : Fin cfg0.W) : (dat0 (Hand.V1 m) c).arrAt w cfg0.N = Hand.V2 m c (Pipeline.arrRef spec0 w) :=
  (W2_arr m c w).symm
theorem rest_at_exit0 (c : Dev nD) : ∀ b, b ∉ Finset.univ.image (Pipeline.arrRef spec0) → Hand.V2 m c b = Hand.V1 m c b :=
  fun b hb => W2_of_ne m c b fun w e => hb (Finset.mem_image.mpr ⟨w, Finset.mem_univ _, e⟩)
theorem arrs_at_exit1 (c : Dev nD) (w : Fin cfg1.W) : (dat1 (Hand.V3 m) c).arrAt w cfg1.N = Hand.V4 m c (Pipeline.arrRef spec1 w) :=
  (W4_arr m c w).symm
theorem rest_at_exit1 (c : Dev nD) : ∀ b, b ∉ Finset.univ.image (Pipeline.arrRef spec1) → Hand.V4 m c b = Hand.V3 m c b :=
  fun b hb => W4_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Hand.V1 m) c
  | ⟨1, _⟩ => fun c => dat1 (Hand.V3 m) c

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (Hand.W4 m c) ∗ ∃ r, prngReg c r)

/-! ## The regions as segments -/

set_option backward.isDefEq.respectTransparency.types false in
/-- Region 0 as a segment: entered with every unscoped buffer at the contents before it, left with them at the
    contents after it. Its windows' arrays are split out of the unscoped buffers at entry and put back, at what the
    pipeline leaves, at exit; the generator register goes into the region's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Hand.V1 m) c).loose
  hwaits := Pipeline.hwaits_of_owed_zero _ _ _ _ L lv 0 fun _ _ => rfl
  pre c := iprop(StableHlo.held (c : Thread nD τ) (Pipeline.ucRefs τ sig) (Hand.W1 m c) ∗ R c)
  post c := iprop(StableHlo.held (c : Thread nD τ) (Pipeline.ucRefs τ sig) (Hand.W2 m c) ∗ R c)
  X c := iprop(∃ r, prngReg c r)
  Y c := iprop(∃ r, prngReg c r)
  Z c := Pipeline.unscopedRest (Ix := Unit) (Name := ℕ) (U := UR sig nD τ) (Lvl := ℕ) spec0 c (Hand.V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Hand.V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Hand.V1 m c) (Hand.V2 m c) ((pdats m 0 c).arrAt · cfg0.N) (arrs_at_exit0 m c) (rest_at_exit0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its windows' arrays are split out of the unscoped buffers at entry and put back, at what the
    pipeline leaves, at exit; the generator register goes into the region's invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Hand.V3 m) c).loose
  hwaits := Pipeline.hwaits_of_owed_zero _ _ _ _ L lv 1 fun _ _ => rfl
  pre c := iprop(StableHlo.held (c : Thread nD τ) (Pipeline.ucRefs τ sig) (Hand.W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Hand.V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Hand.V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Hand.V3 m c) (Hand.V4 m c) ((pdats m 1 c).arrAt · cfg1.N) (arrs_at_exit1 m c) (rest_at_exit1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Hand.W0 m)),
    .region (reg0 m),
    .host (hseg hostOps1 hostOps1_sub Gen.hostOps1_fresh (Hand.W2 m)),
    .region (reg1 m) ]

theorem main_run (c : Dev nD) : main (F := F) c = Pipeline.Seg.run (Hand.segs m) := (main_chain c).trans (by chain_rfl)

set_option backward.isDefEq.respectTransparency.types false in
/-- From any memory with zero counters every weakly fair execution of @main terminates, nothing faulting, and in
    every final state each unscoped buffer of each core holds the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = Hand.W4 m c b) :=
  Pipeline.θ_run_regions_kit (pcfgs (F := F)) adm (pdats m) () cellOf_inj emb₁ defs₀ 𝒱₀ L lv m ρ main (Hand.segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Hand.W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Hand.W0 m c)
        from Pipeline.unscopedBufs_held c (Hand.W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Hand.W4 m c b)
    (hfin := fun c s' => by
      iintro ⟨⟨Hh, -⟩, HSI⟩
      unfold StableHlo.held
      imodintro
      iapply (pointsTo_read_all (Pipeline.ucRefs τ sig) (fun b => (((c : Thread nD τ)).1, b)) (Hand.W4 m c) s')
      isplitl [Hh] <;> iassumption)
    (hQ := fun _ h => h)

/-! ## The arguments end as launched -/

/-- A buffer that neither stretch writes and that is no window's array of either region ends as launched. -/
theorem W4_untouched (c : Dev nD) (b : Ref sig .tc) (h4 : ∀ w, Pipeline.arrRef spec1 w ≠ b) (h3 : b ∉ Gen.hostOps1_W)
    (h2 : ∀ w, Pipeline.arrRef spec0 w ≠ b) (h1 : b ∉ Gen.hostOps0_W) :
    Hand.W4 m c (Proc.devRef .tc b) = m ((c : Thread nD τ).loc b) :=
  (W4_of_ne m c b h4).trans <| (StableHlo.after_of_writes_sub hostOps1 _ Gen.hostOps1_writes h3).trans <|
    (W2_of_ne m c b h2).trans <| (StableHlo.after_of_writes_sub hostOps0 _ Gen.hostOps0_writes h1).trans rfl

/-- An input window's array of region 0 that nothing else writes ends as launched. -/
theorem W4_input0 (c : Dev nD) (w : Fin cfg0.W) (hin : (cfg0.win w).isOut = false)
    (h4 : ∀ w', Pipeline.arrRef spec1 w' ≠ Pipeline.arrRef spec0 w) (h3 : Pipeline.arrRef spec0 w ∉ Gen.hostOps1_W)
    (h1 : Pipeline.arrRef spec0 w ∉ Gen.hostOps0_W) :
    Hand.W4 m c (Proc.devRef .tc (Pipeline.arrRef spec0 w)) = m ((c : Thread nD τ).loc (Pipeline.arrRef spec0 w)) :=
  (W4_of_ne m c _ h4).trans <| (StableHlo.after_of_writes_sub hostOps1 _ Gen.hostOps1_writes h3).trans <|
    (W2_arr m c w).trans <| ((dat0 (Hand.V1 m) c).arrAt_in w hin _).trans <| (A_eq0 (Hand.V1 m) c w).trans <|
    (StableHlo.after_of_writes_sub hostOps0 _ Gen.hostOps0_writes h1).trans rfl

theorem W4_main_arg0 (c : Dev nD) : Hand.W4 m c (Proc.devRef .tc main_arg0) = m ((c : Thread nD τ).loc main_arg0) :=
  W4_untouched m c main_arg0 (by decide) (by decide) (by decide) (by decide)
theorem W4_main_arg1 (c : Dev nD) : Hand.W4 m c (Proc.devRef .tc main_arg1) = m ((c : Thread nD τ).loc main_arg1) :=
  W4_untouched m c main_arg1 (by decide) (by decide) (by decide) (by decide)
theorem W4_main_arg2 (c : Dev nD) : Hand.W4 m c (Proc.devRef .tc main_arg2) = m ((c : Thread nD τ).loc main_arg2) :=
  W4_untouched m c main_arg2 (by decide) (by decide) (by decide) (by decide)
theorem W4_main_arg4 (c : Dev nD) : Hand.W4 m c (Proc.devRef .tc main_arg4) = m ((c : Thread nD τ).loc main_arg4) :=
  W4_untouched m c main_arg4 (by decide) (by decide) (by decide) (by decide)
theorem W4_main_arg6 (c : Dev nD) : Hand.W4 m c (Proc.devRef .tc main_arg6) = m ((c : Thread nD τ).loc main_arg6) :=
  W4_untouched m c main_arg6 (by decide) (by decide) (by decide) (by decide)
theorem W4_main_arg8 (c : Dev nD) : Hand.W4 m c (Proc.devRef .tc main_arg8) = m ((c : Thread nD τ).loc main_arg8) :=
  W4_untouched m c main_arg8 (by decide) (by decide) (by decide) (by decide)
theorem W4_main_arg3 (c : Dev nD) : Hand.W4 m c (Proc.devRef .tc main_arg3) = m ((c : Thread nD τ).loc main_arg3) :=
  W4_input0 m c 1 rfl (by decide) (by decide) (by decide)
theorem W4_main_arg5 (c : Dev nD) : Hand.W4 m c (Proc.devRef .tc main_arg5) = m ((c : Thread nD τ).loc main_arg5) :=
  W4_input0 m c 3 rfl (by decide) (by decide) (by decide)
theorem W4_main_arg7 (c : Dev nD) : Hand.W4 m c (Proc.devRef .tc main_arg7) = m ((c : Thread nD τ).loc main_arg7) :=
  W4_input0 m c 5 rfl (by decide) (by decide) (by decide)
/-- The last matrix is an input window's array of region 1 and nothing writes it. -/
theorem W4_main_arg9 (c : Dev nD) : Hand.W4 m c (Proc.devRef .tc main_arg9) = m ((c : Thread nD τ).loc main_arg9) :=
  (W4_arr m c 2).trans <| ((dat1 (Hand.V3 m) c).arrAt_in 2 rfl _).trans <| (A_eq1 (Hand.V3 m) c 2).trans <|
    (StableHlo.after_of_writes_sub hostOps1 _ Gen.hostOps1_writes (by decide : main_arg9 ∉ Gen.hostOps1_W)).trans <|
    (W2_of_ne m c main_arg9 (by decide)).trans <|
    (StableHlo.after_of_writes_sub hostOps0 _ Gen.hostOps0_writes (by decide : main_arg9 ∉ Gen.hostOps0_W)).trans rfl

/-! ## The frame, and the run with the result named -/

/-- Every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c)⟩) (run_bufs m ρ)

end Cert.KernelIdeal.Hand

end
-- ==== Proof.KiHost.lean ====
/-
  What the two stretches of host operations leave, read against the reference's stages.

  Before the first region the host slices the three index rows, normalises negative indices, gathers the endpoint
  rows, joins them with the edge attributes, and reshapes the three bias vectors to one-row matrices; between the
  regions it scatter-adds the messages and a vector of ones by the middle index row and reshapes the counts to a
  column. The reference performs the same operations on the same arguments, so each of these buffers holds the
  reference's stage of the same name, applied to the launch contents of the arguments.
-/
import proofs.«115480_j34093450396330_1_alg».proof.Proof.KiSetup
import proofs.«115480_j34093450396330_1_alg».proof.Proof.Gen.KernelIdeal.Regions
import proofs.«115480_j34093450396330_1_alg».proof.Proof.Gen.ReferenceIdeal.Read
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## Buffers no stretch and no region writes before they are read -/

theorem V1_arg (c : Dev nD) (b : Ref sig .tc) (h : b ∉ Gen.hostOps0_W) : Hand.V1 m c b = m ((c : Thread nD τ).loc b) :=
  (StableHlo.after_of_writes_sub hostOps0 _ Gen.hostOps0_writes h).trans rfl

theorem V3_keeps (c : Dev nD) (b : Ref sig .tc) (h3 : b ∉ Gen.hostOps1_W) (h2 : ∀ w, Pipeline.arrRef spec0 w ≠ b) :
    Hand.V3 m c b = Hand.V1 m c b :=
  (StableHlo.after_of_writes_sub hostOps1 _ Gen.hostOps1_writes h3).trans (W2_of_ne m c b h2)

/-! ## The first stretch -/

/-- The middle index row, as the reference slices it. -/
theorem V1_main_v3 (c : Dev nD) :
    Hand.V1 m c main_v3 = Cert.ReferenceIdeal.Read.val_main_v3 (F := F) (m ((c : Thread nD τ).loc main_arg1)) := by
  show StableHlo.after hostOps0 (Hand.W0 m c) (Proc.devRef .tc main_v3) = _
  after_results
  rfl

/-- The edge features: the two gathered endpoint rows joined with the edge attributes. -/
theorem V1_main_v20 (c : Dev nD) :
    Hand.V1 m c main_v20 = Cert.ReferenceIdeal.Read.val_main_v20 (F := F) (m ((c : Thread nD τ).loc main_arg0)) (m ((c : Thread nD τ).loc main_arg1))
      (m ((c : Thread nD τ).loc main_arg2)) := by
  show StableHlo.after hostOps0 (Hand.W0 m c) (Proc.devRef .tc main_v20) = _
  after_results
  rfl

/-- The three bias vectors as one-row matrices. -/
theorem V1_main_v21 (c : Dev nD) :
    Hand.V1 m c main_v21 = shapeCast S1x64 (m ((c : Thread nD τ).loc main_arg4)) shapeCasts_S64_S1x64 := by
  show StableHlo.after hostOps0 (Hand.W0 m c) (Proc.devRef .tc main_v21) = _
  after_results
  rfl
theorem V1_main_v22 (c : Dev nD) :
    Hand.V1 m c main_v22 = shapeCast S1x64 (m ((c : Thread nD τ).loc main_arg6)) shapeCasts_S64_S1x64 := by
  show StableHlo.after hostOps0 (Hand.W0 m c) (Proc.devRef .tc main_v22) = _
  after_results
  rfl
theorem V1_main_v23 (c : Dev nD) :
    Hand.V1 m c main_v23 = shapeCast S1x128 (m ((c : Thread nD τ).loc main_arg8)) shapeCasts_S128_S1x128 := by
  show StableHlo.after hostOps0 (Hand.W0 m c) (Proc.devRef .tc main_v23) = _
  after_results
  rfl

/-! ## The second stretch -/

/-- The summed messages: the scatter-add, by the middle index row, of what the first region left. -/
theorem V3_main_v27 (c : Dev nD) :
    Hand.V3 m c main_v27 = Host.scatterAdd scatter_S100000x128_S1000000x1_S1000000x128_1_0_0_1
      (Cert.ReferenceIdeal.Read.val_main_v35 (F := F)) (Cert.ReferenceIdeal.Read.val_main_v36 (F := F) (m ((c : Thread nD τ).loc main_arg1)))
      (Hand.W2 m c (Proc.devRef .tc main_v24)) := by
  show StableHlo.after hostOps1 (Hand.W2 m c) (Proc.devRef .tc main_v27) = _
  after_results
  rw [W2_of_ne m c main_v3 (by decide)]
  show Host.scatterAdd _ _ (broadcastInDim S1000000x1 ![0] bcast_S1000000_S1000000x1_0 (Hand.V1 m c main_v3)) _ = _
  rw [V1_main_v3]
  rfl

/-- The counts as a column: the scatter-add of ones by the middle index row, reshaped. -/
theorem V3_main_v32 (c : Dev nD) :
    Hand.V3 m c main_v32 = shapeCast S100000x1 (Cert.ReferenceIdeal.Read.val_main_v41 (F := F) (m ((c : Thread nD τ).loc main_arg1))) shapeCasts_S100000_S100000x1 := by
  show StableHlo.after hostOps1 (Hand.W2 m c) (Proc.devRef .tc main_v32) = _
  after_results
  rw [W2_of_ne m c main_v3 (by decide)]
  show (fun i => shapeCast S100000x1 (Host.scatterAdd _ _ (broadcastInDim S1000000x1 ![0] bcast_S1000000_S1000000x1_0 (Hand.V1 m c main_v3)) _) shapeCasts_S100000_S100000x1 i) = _
  rw [V1_main_v3]
  rfl

end Cert.KernelIdeal.Hand

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.KiSpec.lean ====
/-
  One edge's message and one node's output, as functions of a single row, on the extended reals.

  An edge's 258 input features pass through three dense layers, the first two followed by x ↦ x · σ(x) with
  σ(x) = 1 / (1 + e^(-x)); a node's 128 summed messages are divided entrywise by the node's message count floored at
  one and multiplied by a 128 × 128 matrix. Every entry of a result row depends on the matching input row alone, so
  an array computed a block of rows at a time and the same array computed all rows at once agree row by row.
  The rows, matrices and vectors are plain functions (`row`, `mat`, `vec`, `affine` of LibDenseRows.lean).
-/
import Idealize.ShloMosaic.Lib.ValueIdx
import Idealize.ShloMosaic.PureOps.Ideal
import proofs.«115480_j34093450396330_1_alg».proof.Proof.LibDenseRows

noncomputable section

namespace Cert.Hand.Spec

open Idealize.ShloMosaic Idealize.ShloMosaic.ValueIdx Cert.DenseRows

/-- x ↦ x · σ(x), entry by entry. -/
def silu {N : ℕ} (h : Fin N → EReal) : Fin N → EReal := fun n => h n * Ideal.logistic (h n)

/-- One edge's message from its 258 input features: three dense layers, the first two followed by `silu`. -/
def mlpRow (a : Fin 258 → EReal) (W1 : Fin 258 → Fin 64 → EReal) (b1 : Fin 64 → EReal)
    (W2 : Fin 64 → Fin 64 → EReal) (b2 : Fin 64 → EReal) (W3 : Fin 64 → Fin 128 → EReal) (b3 : Fin 128 → EReal) :
    Fin 128 → EReal :=
  affine (silu (affine (silu (affine a W1 b1)) W2 b2)) W3 b3

/-- One node's output row: its summed messages `s`, each divided by the node's count floored at the f32 word
    for one, then multiplied by the matrix `Wo`. -/
def finRow (s : Fin 128 → EReal) (cnt : EReal) (Wo : Fin 128 → Fin 128 → EReal) : Fin 128 → EReal :=
  fun o => ∑ k : Fin 128, Ideal.div (s k) (max cnt (Ideal.ofBits .f32 0x3F800000#32)) * Wo k o

/-- The `[R, N]` array whose row `r` is `f r`. -/
def ofRows {R N : ℕ} (f : Fin R → Fin N → EReal) : (⟨2, ![R, N]⟩ : Shape).Idx → EReal :=
  fun i => f ⟨(i 0).val, (i 0).isLt⟩ ⟨(i 1).val, (i 1).isLt⟩

theorem ofRows_ix2 {R N : ℕ} (f : Fin R → Fin N → EReal) (r : Fin R) (n : Fin N) : ofRows f (ix2 r n) = f r n := rfl

theorem row_ofRows {R N : ℕ} (f : Fin R → Fin N → EReal) (r : Fin R) : row (ofRows f) r = f r := rfl

/-- An array is determined by its rows. -/
theorem eq_ofRows {R N : ℕ} (H : (⟨2, ![R, N]⟩ : Shape).Idx → EReal) (f : Fin R → Fin N → EReal)
    (h : ∀ r, row H r = f r) : H = ofRows f := by
  funext i
  obtain ⟨r, n, rfl⟩ : ∃ (r : Fin R) (n : Fin N), i = ix2 r n := ⟨i 0, i 1, eq_ix2 i⟩
  exact congrFun (h r) n

end Cert.Hand.Spec

end
-- ==== Proof.LibColumnCast.lean ====
/-
  A vector made a column, and a vector made a one-row matrix, read at an entry.

  A shape cast keeps every element's row-major position. So an `[a]` vector cast to the column `[a, 1]` holds, at
  `(i, 0)`, the vector's entry `i`; and cast to the one-row matrix `[1, a]` its row 0 is the vector itself. These are
  the keep-dimensions forms a per-row scale (a count, a norm) and a per-column bias take on their way into a block of
  rows. Stated at any extent, indices by `ix1` / `ix2`.
-/
import Idealize.ShloMosaic.Lib.ValueLayout
import Idealize.ShloMosaic.Lib.ValueIdx
import Idealize.ShloMosaic.Lib.Pipeline.Value

noncomputable section

namespace Cert.ColumnCast

open Idealize.ShloMosaic Idealize.ShloMosaic.ValueIdx

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row 0 of an `[a]` vector cast to the one-row matrix `[1, a]` is the vector, entry by entry. -/
theorem shapeCast_a_1a_row {a : ℕ} (x : (⟨1, ![a]⟩ : Shape).Idx → α) (h : (⟨1, ![a]⟩ : Shape).ShapeCasts ⟨2, ![1, a]⟩) :
    (fun i : Fin a => shapeCast ⟨2, ![1, a]⟩ x h (ix2 (0 : Fin 1) i)) = fun i => x (ix1 i) :=
  funext fun i => shapeCast_a_1a_apply x h 0 i

end Cert.ColumnCast

end
-- ==== Proof.KiRowBlock.lean ====
/-
  Blocks of rows of a two-axis array, on the extended reals.

  An [R, K] array is cut into blocks of B consecutive rows; block n holds rows B·n … B·n + B − 1, and an entry (r, k)
  of the block sits in the array at (B·n + r, k). So row r of block n of an array A is row B·n + r of A, and a
  block whose every row r is f (B·n + r) is block n of the array whose rows are f. A block that is the whole array
  (every entry at its own place) is the array.
-/
import Idealize.ShloMosaic.Lib.ValueIdx
import proofs.«115480_j34093450396330_1_alg».proof.Proof.KiSpec
import proofs.«115480_j34093450396330_1_alg».proof.Proof.LibDenseRows

noncomputable section

namespace Cert.Hand.RowBlock

open Idealize.ShloMosaic Idealize.ShloMosaic.ValueIdx Cert.DenseRows Cert.Hand.Spec

/-- Row `r` of the block read from `A` at places `emb`, when `emb` sends entry (r, k) to (B·n + r, k), is row
    `B·n + r` of `A`. -/
theorem row_read {R B K : ℕ} (A : (⟨2, ![R, K]⟩ : Shape).Idx → EReal)
    (emb : (⟨2, ![B, K]⟩ : Shape).Idx → (⟨2, ![R, K]⟩ : Shape).Idx) (n : ℕ)
    (h0 : ∀ y, (emb y 0).val = B * n + (y 0).val) (h1 : ∀ y, (emb y 1).val = (y 1).val)
    (r : Fin B) (hr : B * n + r.val < R) :
    row (fun y => A (emb y)) r = row A ⟨B * n + r.val, hr⟩ := by
  funext k
  show A (emb (ix2 r k)) = A (ix2 ⟨B * n + r.val, hr⟩ k)
  refine congrArg A (funext fun a => Fin.ext ?_)
  match a with
  | ⟨0, _⟩ => exact h0 (ix2 r k)
  | ⟨1, _⟩ => exact h1 (ix2 r k)

/-- One entry of a column block: entry (r, 0) of the block read from the [R, 1] array `A` at places `emb` is
    entry (B·n + r, 0) of `A`. -/
theorem col_read {R B : ℕ} (A : (⟨2, ![R, 1]⟩ : Shape).Idx → EReal)
    (emb : (⟨2, ![B, 1]⟩ : Shape).Idx → (⟨2, ![R, 1]⟩ : Shape).Idx) (n : ℕ)
    (h0 : ∀ y, (emb y 0).val = B * n + (y 0).val)
    (r : Fin B) (hr : B * n + r.val < R) :
    A (emb (ix2 r (0 : Fin 1))) = A (ix2 ⟨B * n + r.val, hr⟩ (0 : Fin 1)) := by
  refine congrArg A (funext fun a => Fin.ext ?_)
  match a with
  | ⟨0, _⟩ => exact h0 (ix2 r (0 : Fin 1))
  | ⟨1, _⟩ =>
    have h := (emb (ix2 r (0 : Fin 1)) 1).isLt
    show (emb (ix2 r (0 : Fin 1)) 1).val = 0
    exact Nat.lt_one_iff.mp h

/-- A block read at every entry's own place is the array. -/
theorem read_whole {S : Shape} {α : Type} (A : S.Idx → α) (emb : S.Idx → S.Idx)
    (h : ∀ y a, (emb y a).val = (y a).val) : (fun y => A (emb y)) = A :=
  funext fun y => congrArg A (funext fun a => Fin.ext (h y a))

/-- A block `X` whose row `r` is `f (B·n + r)`, for every row, is the array of rows `f` read at places `emb`,
    when `emb` sends entry (r, o) to (B·n + r, o). -/
theorem eq_read_ofRows {R B N : ℕ} (X : (⟨2, ![B, N]⟩ : Shape).Idx → EReal) (f : Fin R → Fin N → EReal)
    (emb : (⟨2, ![B, N]⟩ : Shape).Idx → (⟨2, ![R, N]⟩ : Shape).Idx) (n : ℕ)
    (h0 : ∀ y, (emb y 0).val = B * n + (y 0).val) (h1 : ∀ y, (emb y 1).val = (y 1).val)
    (hX : ∀ (r : Fin B) (hr : B * n + r.val < R), row X r = f ⟨B * n + r.val, hr⟩) :
    X = fun y => ofRows f (emb y) := by
  funext y
  obtain ⟨r, o, rfl⟩ : ∃ (r : Fin B) (o : Fin N), y = ix2 r o := ⟨y 0, y 1, eq_ix2 y⟩
  have e0 : (emb (ix2 r o) 0).val = B * n + r.val := h0 (ix2 r o)
  have e1 : (emb (ix2 r o) 1).val = o.val := h1 (ix2 r o)
  have hr : B * n + r.val < R := e0 ▸ (emb (ix2 r o) 0).isLt
  show row X r o = f ⟨(emb (ix2 r o) 0).val, _⟩ ⟨(emb (ix2 r o) 1).val, _⟩
  rw [hX r hr]
  exact congr (congrArg f (Fin.ext e0.symm)) (Fin.ext e1.symm)

/-- Row `e` of an array cut into blocks of `B` rows lies in block `e / B`: between that block's first row and its
    last. -/
theorem row_in_block {B : ℕ} (hB : 0 < B) (e : ℕ) : e / B * B ≤ e ∧ e < e / B * B + B := by
  constructor
  · exact Nat.div_mul_le_self e B
  · have := Nat.lt_div_mul_add hB (a := e)
    exact this

end Cert.Hand.RowBlock

end
-- ==== Proof.KiArr0Blocks.lean ====
/-
  Region 0's blocks, read off the arrays the region finds.

  The region runs over 250 points. At point t the window on the [1000000, 258] array of edge features holds rows
  4000·t … 4000·t + 3999, and so does the output window on the [1000000, 128] array of messages; each of the six
  small arrays (three weight matrices, three one-row biases) is a single block, the same at every point. An entry
  (r, k) of a block at point t sits in its array at (block index × block rows + r, k).
-/
import proofs.«115480_j34093450396330_1_alg».proof.Proof.KiSetup
import proofs.«115480_j34093450396330_1_alg».proof.Proof.KiSpec
import proofs.«115480_j34093450396330_1_alg».proof.Proof.LibDenseRows
import Idealize.ShloMosaic.Lib.Pipeline.Value
import Idealize.ShloMosaic.Lib.ValueIdx
import proofs.«115480_j34093450396330_1_alg».proof.Proof.KiRowBlock

noncomputable section

namespace Cert.KernelIdeal.Hand

open Cert.KernelIdeal Cert.KernelIdeal.Gen Cert.DenseRows Cert.Hand.Spec
open Idealize.ShloMosaic Idealize.ShloMosaic.TcCoe Idealize.ShloMosaic.ValueIdx Idealize.SL.Sem
open Idealize.ShloMosaic.Pipeline (Dat)
open Cert.Hand.RowBlock

variable (V : (c : Dev nD) → (b : Ref sig .tc) → Buf (Elt Ideal) ((c : Thread nD τ).loc b))

/-- The printed index maps, decided once over the 250 points: the edge features' and the messages' block index is the
    point on the row axis and zero on the other; the six small arrays are each one block at index zero. -/
theorem idx0 : ∀ t : Fin cfg0.N,
    win0_0.index t (0 : Fin 2) = t.val ∧ win0_0.index t (1 : Fin 2) = 0
    ∧ win0_7.index t (0 : Fin 2) = t.val ∧ win0_7.index t (1 : Fin 2) = 0
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Where an entry of the edge features' block at point `t` sits in the array: 4000·t rows down, same column. -/
theorem emb0_0 (t : Fin cfg0.N) (y : S4000x258.Idx) :
    ((((cfg0.win 0).blk t).view.emb y : S1000000x258.Idx) 0).val = 4000 * t.val + (y 0).val
    ∧ ((((cfg0.win 0).blk t).view.emb y : S1000000x258.Idx) 1).val = (y 1).val := by
  obtain ⟨e0, e1, -⟩ := idx0 t
  constructor
  · show win0_0.index t (0 : Fin 2) * 4000 + 1 * (y 0).val = _
    rw [e0]; omega
  · show win0_0.index t (1 : Fin 2) * 258 + 1 * (y 1).val = _
    rw [e1]; omega

/-- Where an entry of the messages' block at point `t` sits in the array: 4000·t rows down, same column. -/
theorem emb0_7 (t : Fin cfg0.N) (y : S4000x128.Idx) :
    ((((cfg0.win 7).blk t).view.emb y : S1000000x128.Idx) 0).val = 4000 * t.val + (y 0).val
    ∧ ((((cfg0.win 7).blk t).view.emb y : S1000000x128.Idx) 1).val = (y 1).val := by
  obtain ⟨-, -, e0, e1, -⟩ := idx0 t
  constructor
  · show win0_7.index t (0 : Fin 2) * 4000 + 1 * (y 0).val = _
    rw [e0]; omega
  · show win0_7.index t (1 : Fin 2) * 128 + 1 * (y 1).val = _
    rw [e1]; omega

/-- Row `r` of the edge features' block at point `t` is row `4000·t + r` of the array. -/
theorem row_blk0_0 (c : Dev nD) (t : Fin cfg0.N) (r : Fin 4000) (hr : 4000 * t.val + r.val < 1000000) :
    row (blk0 V c 0 t : S4000x258.Idx → EReal) r
      = row (V c main_v20 : S1000000x258.Idx → EReal) ⟨4000 * t.val + r.val, hr⟩ :=
  row_read (V c main_v20 : S1000000x258.Idx → EReal) (fun y => ((cfg0.win 0).blk t).view.emb y) t.val
    (fun y => (emb0_0 t y).1) (fun y => (emb0_0 t y).2) r hr

/-! Each of the six small arrays is one block: at every point the block is the array. -/

theorem blk0_1 (c : Dev nD) (t : Fin cfg0.N) : (blk0 V c 1 t : S258x64.Idx → EReal) = (V c main_arg3 : S258x64.Idx → EReal) :=
  read_whole (V c main_arg3 : S258x64.Idx → EReal) (fun y => ((cfg0.win 1).blk t).view.emb y) fun y a => by
    have e := (idx0 t).2.2.2.2.1
    match a with
    | ⟨0, _⟩ => show win0_1.index t (0 : Fin 2) * 258 + 1 * (y 0).val = (y 0).val; rw [e.1]; omega
    | ⟨1, _⟩ => show win0_1.index t (1 : Fin 2) * 64 + 1 * (y 1).val = (y 1).val; rw [e.2]; omega

theorem blk0_2 (c : Dev nD) (t : Fin cfg0.N) : (blk0 V c 2 t : S1x64.Idx → EReal) = (V c main_v21 : S1x64.Idx → EReal) :=
  read_whole (V c main_v21 : S1x64.Idx → EReal) (fun y => ((cfg0.win 2).blk t).view.emb y) fun y a => by
    have e := (idx0 t).2.2.2.2.2.1
    match a with
    | ⟨0, _⟩ => show win0_2.index t (0 : Fin 2) * 1 + 1 * (y 0).val = (y 0).val; rw [e.1]; omega
    | ⟨1, _⟩ => show win0_2.index t (1 : Fin 2) * 64 + 1 * (y 1).val = (y 1).val; rw [e.2]; omega

theorem blk0_3 (c : Dev nD) (t : Fin cfg0.N) : (blk0 V c 3 t : S64x64.Idx → EReal) = (V c main_arg5 : S64x64.Idx → EReal) :=
  read_whole (V c main_arg5 : S64x64.Idx → EReal) (fun y => ((cfg0.win 3).blk t).view.emb y) fun y a => by
    have e := (idx0 t).2.2.2.2.2.2.1
    match a with
    | ⟨0, _⟩ => show win0_3.index t (0 : Fin 2) * 64 + 1 * (y 0).val = (y 0).val; rw [e.1]; omega
    | ⟨1, _⟩ => show win0_3.index t (1 : Fin 2) * 64 + 1 * (y 1).val = (y 1).val; rw [e.2]; omega

theorem blk0_4 (c : Dev nD) (t : Fin cfg0.N) : (blk0 V c 4 t : S1x64.Idx → EReal) = (V c main_v22 : S1x64.Idx → EReal) :=
  read_whole (V c main_v22 : S1x64.Idx → EReal) (fun y => ((cfg0.win 4).blk t).view.emb y) fun y a => by
    have e := (idx0 t).2.2.2.2.2.2.2.1
    match a with
    | ⟨0, _⟩ => show win0_4.index t (0 : Fin 2) * 1 + 1 * (y 0).val = (y 0).val; rw [e.1]; omega
    | ⟨1, _⟩ => show win0_4.index t (1 : Fin 2) * 64 + 1 * (y 1).val = (y 1).val; rw [e.2]; omega

theorem blk0_5 (c : Dev nD) (t : Fin cfg0.N) : (blk0 V c 5 t : S64x128.Idx → EReal) = (V c main_arg7 : S64x128.Idx → EReal) :=
  read_whole (V c main_arg7 : S64x128.Idx → EReal) (fun y => ((cfg0.win 5).blk t).view.emb y) fun y a => by
    have e := (idx0 t).2.2.2.2.2.2.2.2.1
    match a with
    | ⟨0, _⟩ => show win0_5.index t (0 : Fin 2) * 64 + 1 * (y 0).val = (y 0).val; rw [e.1]; omega
    | ⟨1, _⟩ => show win0_5.index t (1 : Fin 2) * 128 + 1 * (y 1).val = (y 1).val; rw [e.2]; omega

theorem blk0_6 (c : Dev nD) (t : Fin cfg0.N) : (blk0 V c 6 t : S1x128.Idx → EReal) = (V c main_v23 : S1x128.Idx → EReal) :=
  read_whole (V c main_v23 : S1x128.Idx → EReal) (fun y => ((cfg0.win 6).blk t).view.emb y) fun y a => by
    have e := (idx0 t).2.2.2.2.2.2.2.2.2
    match a with
    | ⟨0, _⟩ => show win0_6.index t (0 : Fin 2) * 1 + 1 * (y 0).val = (y 0).val; rw [e.1]; omega
    | ⟨1, _⟩ => show win0_6.index t (1 : Fin 2) * 128 + 1 * (y 1).val = (y 1).val; rw [e.2]; omega

end Cert.KernelIdeal.Hand

end
-- ==== Proof.KiArr0.lean ====
/-
  Region 0's output array after the run, as one function of the arrays the region finds.

  Every point writes its block of the [1000000, 128] array of messages back. Row r of what point t writes is the
  three-layer network of row r of the edge features' block, that is, of row 4000·t + r of the edge features, with the
  weights and biases the region finds; so the block is block t of ONE array, the array whose row e is the network of
  row e of the edge features. The 250 blocks cover the array (row e lies in block e / 4000), hence after the last
  write-back the array is that one.
-/
import proofs.«115480_j34093450396330_1_alg».proof.Proof.KiSetup
import proofs.«115480_j34093450396330_1_alg».proof.Proof.KiSpec
import proofs.«115480_j34093450396330_1_alg».proof.Proof.LibDenseRows
import Idealize.ShloMosaic.Lib.Pipeline.Value
import Idealize.ShloMosaic.Lib.ValueIdx
import proofs.«115480_j34093450396330_1_alg».proof.Proof.KiRowBlock
import proofs.«115480_j34093450396330_1_alg».proof.Proof.KiArr0Blocks

noncomputable section

namespace Cert.KernelIdeal.Hand

open Cert.KernelIdeal Cert.KernelIdeal.Gen Cert.DenseRows Cert.Hand.Spec
open Idealize.ShloMosaic Idealize.ShloMosaic.TcCoe Idealize.ShloMosaic.ValueIdx Idealize.SL.Sem
open Idealize.ShloMosaic.Pipeline (Dat)
open Cert.Hand.RowBlock

section

variable (V : (c : Dev nD) → (b : Ref sig .tc) → Buf (Elt Ideal) ((c : Thread nD τ).loc b))

/-- The messages as ONE array of the arrays region 0 finds: row `e` is the three-layer network of row `e` of the
    edge features. -/
abbrev msgs (c : Dev nD) : S1000000x128.Idx → EReal :=
  ofRows (fun e : Fin 1000000 => mlpRow (row (V c main_v20 : S1000000x258.Idx → EReal) e) (mat (V c main_arg3 : S258x64.Idx → EReal)) (row (V c main_v21 : S1x64.Idx → EReal) (0 : Fin 1)) (mat (V c main_arg5 : S64x64.Idx → EReal)) (row (V c main_v22 : S1x64.Idx → EReal) (0 : Fin 1)) (mat (V c main_arg7 : S64x128.Idx → EReal)) (row (V c main_v23 : S1x128.Idx → EReal) (0 : Fin 1)))

/-- What point `t` writes back is block `t` of `msgs`: row `r` of the body's value is the network of row `r` of the
    edge features' block, which is row `4000·t + r` of the array, and the weights' and biases' blocks are the arrays. -/
theorem flushed0_eq (hmlp : ∀ (x0 : Vec Ideal S4000x258 .f32) (x1 : Vec Ideal S258x64 .f32) (x2 : Vec Ideal S1x64 .f32) (x3 : Vec Ideal S64x64 .f32) (x4 : Vec Ideal S1x64 .f32) (x5 : Vec Ideal S64x128 .f32) (x6 : Vec Ideal S1x128 .f32) (r : Fin 4000), row (k0_pay1 (F := Ideal) x0 x1 x2 x3 x4 x5 x6) r = mlpRow (row x0 r) (mat x1) (row x2 (0 : Fin 1)) (mat x3) (row x4 (0 : Fin 1)) (mat x5) (row x6 (0 : Fin 1)))
    (c : Dev nD) (t : Fin cfg0.N) :
    (dat0 V c).flushed 7 t = ((cfg0.win 7).blk t).view.read (Elt Ideal) (msgs V c) := by
  show (cfg0.win 7).cut (grid0.coords t) ((dat0 V c).after 7 t) = _
  rw [after0_7 V c t]
  refine eq_read_ofRows (R := 1000000) (B := 4000) (N := 128) _
    (fun e : Fin 1000000 => mlpRow (row (V c main_v20 : S1000000x258.Idx → EReal) e) (mat (V c main_arg3 : S258x64.Idx → EReal)) (row (V c main_v21 : S1x64.Idx → EReal) (0 : Fin 1)) (mat (V c main_arg5 : S64x64.Idx → EReal)) (row (V c main_v22 : S1x64.Idx → EReal) (0 : Fin 1)) (mat (V c main_arg7 : S64x128.Idx → EReal)) (row (V c main_v23 : S1x128.Idx → EReal) (0 : Fin 1)))
    (fun y => ((cfg0.win 7).blk t).view.emb y) t.val
    (fun y => (emb0_7 t y).1) (fun y => (emb0_7 t y).2) fun r hr => ?_
  refine (hmlp _ _ _ _ _ _ _ r).trans ?_
  rw [row_blk0_0 V c t r hr, blk0_1 V c t, blk0_2 V c t, blk0_3 V c t, blk0_4 V c t, blk0_5 V c t, blk0_6 V c t]

/-- An index of the messages' array is in point `t`'s block iff each coordinate is in the block's range on its axis. -/
theorem mem_blk0_7 (t : Fin cfg0.N) (i : S1000000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v24).slice (win0_7.rect t)).set ↔ _
  rw [View.set_slice_whole, Rect.mem_set_unit]
  exact Iff.rfl

/-- Every index (e, o) of the messages' array is in the block of point `e / 4000`, which is written back. -/
theorem cover0 (i : S1000000x128.Idx) :
    ∃ t : Fin cfg0.N, (cfg0.win 7).flush t = true ∧ i ∈ ((cfg0.win 7).blk t).view.set := by
  have hi0 : (i 0).val < 1000000 := (i 0).isLt
  have hi1 : (i 1).val < 128 := (i 1).isLt
  have hN : cfg0.N = 250 := N_0
  obtain ⟨t, ht⟩ : ∃ t : Fin cfg0.N, t.val = (i 0).val / 4000 := ⟨⟨(i 0).val / 4000, by rw [hN]; omega⟩, rfl⟩
  obtain ⟨-, -, e0, e1, -⟩ := idx0 t
  refine ⟨t, flush0_7 t, ?_⟩
  rw [mem_blk0_7]
  intro a
  match a with
  | ⟨0, _⟩ =>
    show win0_7.index t (0 : Fin 2) * 4000 ≤ (i 0).val ∧ (i 0).val < win0_7.index t (0 : Fin 2) * 4000 + 4000
    rw [e0, ht]; omega
  | ⟨1, _⟩ =>
    show win0_7.index t (1 : Fin 2) * 128 ≤ (i 1).val ∧ (i 1).val < win0_7.index t (1 : Fin 2) * 128 + 128
    rw [e1]; omega

end

/-- The messages' array after region 0: every block written back is a block of `msgs`, and the blocks cover the
    array. -/
theorem arr0_msgs (hmlp : ∀ (x0 : Vec Ideal S4000x258 .f32) (x1 : Vec Ideal S258x64 .f32) (x2 : Vec Ideal S1x64 .f32) (x3 : Vec Ideal S64x64 .f32) (x4 : Vec Ideal S1x64 .f32) (x5 : Vec Ideal S64x128 .f32) (x6 : Vec Ideal S1x128 .f32) (r : Fin 4000), row (k0_pay1 (F := Ideal) x0 x1 x2 x3 x4 x5 x6) r = mlpRow (row x0 r) (mat x1) (row x2 (0 : Fin 1)) (mat x3) (row x4 (0 : Fin 1)) (mat x5) (row x6 (0 : Fin 1)))
    (V : (c : Dev nD) → (b : Ref sig .tc) → Buf (Elt Ideal) ((c : Thread nD τ).loc b)) (c : Dev nD) :
    ((dat0 V c).arrAt 7 cfg0.N : S1000000x128.Idx → EReal)
      = ofRows (fun e : Fin 1000000 => mlpRow (row (V c main_v20 : S1000000x258.Idx → EReal) e) (mat (V c main_arg3 : S258x64.Idx → EReal)) (row (V c main_v21 : S1x64.Idx → EReal) (0 : Fin 1)) (mat (V c main_arg5 : S64x64.Idx → EReal)) (row (V c main_v22 : S1x64.Idx → EReal) (0 : Fin 1)) (mat (V c main_arg7 : S64x128.Idx → EReal)) (row (V c main_v23 : S1x128.Idx → EReal) (0 : Fin 1))) :=
  (dat0 V c).arrAt_eq_of_cover 7 (msgs V c) (fun t _ => flushed0_eq V hmlp c t) cover0

end Cert.KernelIdeal.Hand

end
-- ==== Proof.KiArr1.lean ====
/-
  Region 1's output array after the run, as one function of the arrays the region finds.

  The region runs over 50 points. At point t the windows on the [100000, 128] array of summed messages, on the
  [100000, 1] column of counts and on the [100000, 128] output each hold rows 2000·t … 2000·t + 1999; the 128 × 128
  matrix is a single block, the same at every point. Row r of what point t writes back is the node update of row r of
  the summed messages' block and entry r of the counts' block, that is, of row and entry 2000·t + r of their arrays;
  so the block is block t of ONE array, the array whose row n is the node update of row n and count n. The 50 blocks
  cover the array (row n lies in block n / 2000), hence after the last write-back the array is that one.
-/
import proofs.«115480_j34093450396330_1_alg».proof.Proof.KiSetup
import proofs.«115480_j34093450396330_1_alg».proof.Proof.KiSpec
import proofs.«115480_j34093450396330_1_alg».proof.Proof.LibDenseRows
import Idealize.ShloMosaic.Lib.Pipeline.Value
import Idealize.ShloMosaic.Lib.ValueIdx
import proofs.«115480_j34093450396330_1_alg».proof.Proof.KiRowBlock

noncomputable section

namespace Cert.KernelIdeal.Hand

open Cert.KernelIdeal Cert.KernelIdeal.Gen Cert.DenseRows Cert.Hand.Spec
open Idealize.ShloMosaic Idealize.ShloMosaic.TcCoe Idealize.ShloMosaic.ValueIdx Idealize.SL.Sem
open Idealize.ShloMosaic.Pipeline (Dat)
open Cert.Hand.RowBlock

section

variable (V : (c : Dev nD) → (b : Ref sig .tc) → Buf (Elt Ideal) ((c : Thread nD τ).loc b))

/-- The printed index maps, decided once over the 50 points: the summed messages', the counts' and the outputs' block
    index is the point on the row axis and zero on the other; the matrix is one block at index zero. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

/-- Where an entry of the summed messages' block at point `t` sits in the array: 2000·t rows down, same column. -/
theorem emb1_0 (t : Fin cfg1.N) (y : S2000x128.Idx) :
    ((((cfg1.win 0).blk t).view.emb y : S100000x128.Idx) 0).val = 2000 * t.val + (y 0).val
    ∧ ((((cfg1.win 0).blk t).view.emb y : S100000x128.Idx) 1).val = (y 1).val := by
  obtain ⟨⟨e0, e1⟩, -⟩ := idx1 t
  constructor
  · show win1_0.index t (0 : Fin 2) * 2000 + 1 * (y 0).val = _
    rw [e0]; omega
  · show win1_0.index t (1 : Fin 2) * 128 + 1 * (y 1).val = _
    rw [e1]; omega

/-- Where an entry of the counts' block at point `t` sits in the column: 2000·t rows down. -/
theorem emb1_1 (t : Fin cfg1.N) (y : S2000x1.Idx) :
    ((((cfg1.win 1).blk t).view.emb y : S100000x1.Idx) 0).val = 2000 * t.val + (y 0).val := by
  obtain ⟨-, ⟨e0, -⟩, -⟩ := idx1 t
  show win1_1.index t (0 : Fin 2) * 2000 + 1 * (y 0).val = _
  rw [e0]; omega

/-- Where an entry of the outputs' block at point `t` sits in the array: 2000·t rows down, same column. -/
theorem emb1_3 (t : Fin cfg1.N) (y : S2000x128.Idx) :
    ((((cfg1.win 3).blk t).view.emb y : S100000x128.Idx) 0).val = 2000 * t.val + (y 0).val
    ∧ ((((cfg1.win 3).blk t).view.emb y : S100000x128.Idx) 1).val = (y 1).val := by
  obtain ⟨-, -, -, e0, e1⟩ := idx1 t
  constructor
  · show win1_3.index t (0 : Fin 2) * 2000 + 1 * (y 0).val = _
    rw [e0]; omega
  · show win1_3.index t (1 : Fin 2) * 128 + 1 * (y 1).val = _
    rw [e1]; omega

/-- Row `r` of the summed messages' block at point `t` is row `2000·t + r` of the array. -/
theorem row_blk1_0 (c : Dev nD) (t : Fin cfg1.N) (r : Fin 2000) (hr : 2000 * t.val + r.val < 100000) :
    row (blk1 V c 0 t : S2000x128.Idx → EReal) r
      = row (V c main_v27 : S100000x128.Idx → EReal) ⟨2000 * t.val + r.val, hr⟩ :=
  row_read (V c main_v27 : S100000x128.Idx → EReal) (fun y => ((cfg1.win 0).blk t).view.emb y) t.val
    (fun y => (emb1_0 t y).1) (fun y => (emb1_0 t y).2) r hr

/-- Entry `r` of the counts' block at point `t` is entry `2000·t + r` of the column. -/
theorem blk1_1_apply (c : Dev nD) (t : Fin cfg1.N) (r : Fin 2000) (hr : 2000 * t.val + r.val < 100000) :
    (blk1 V c 1 t : S2000x1.Idx → EReal) (ix2 r (0 : Fin 1))
      = (V c main_v32 : S100000x1.Idx → EReal) (ix2 ⟨2000 * t.val + r.val, hr⟩ (0 : Fin 1)) :=
  col_read (V c main_v32 : S100000x1.Idx → EReal) (fun y => ((cfg1.win 1).blk t).view.emb y) t.val
    (fun y => emb1_1 t y) r hr

/-- The matrix is one block: at every point the block is the array. -/
theorem blk1_2 (c : Dev nD) (t : Fin cfg1.N) : (blk1 V c 2 t : S128x128.Idx → EReal) = (V c main_arg9 : S128x128.Idx → EReal) :=
  read_whole (V c main_arg9 : S128x128.Idx → EReal) (fun y => ((cfg1.win 2).blk t).view.emb y) fun y a => by
    have e := (idx1 t).2.2.1
    match a with
    | ⟨0, _⟩ => show win1_2.index t (0 : Fin 2) * 128 + 1 * (y 0).val = (y 0).val; rw [e.1]; omega
    | ⟨1, _⟩ => show win1_2.index t (1 : Fin 2) * 128 + 1 * (y 1).val = (y 1).val; rw [e.2]; omega

/-- The outputs as ONE array of the arrays region 1 finds: row `n` is the node update of row `n` of the summed
    messages and entry `n` of the counts. -/
abbrev outs (c : Dev nD) : S100000x128.Idx → EReal :=
  ofRows (fun n : Fin 100000 => finRow (row (V c main_v27 : S100000x128.Idx → EReal) n) ((V c main_v32 : S100000x1.Idx → EReal) (ix2 n (0 : Fin 1))) (mat (V c main_arg9 : S128x128.Idx → EReal)))

/-- What point `t` writes back is block `t` of `outs`: row `r` of the body's value is the node update of row `r` of
    the summed messages' block and entry `r` of the counts' block, which are row and entry `2000·t + r` of their
    arrays, and the matrix's block is the matrix. -/
theorem flushed1_eq (hfin : ∀ (y0 : Vec Ideal S2000x128 .f32) (y1 : Vec Ideal S2000x1 .f32) (y2 : Vec Ideal S128x128 .f32) (r : Fin 2000), row (k1_pay1 (F := Ideal) y0 y1 y2) r = finRow (row y0 r) (y1 (ix2 r (0 : Fin 1))) (mat y2))
    (c : Dev nD) (t : Fin cfg1.N) :
    (dat1 V c).flushed 3 t = ((cfg1.win 3).blk t).view.read (Elt Ideal) (outs V c) := by
  show (cfg1.win 3).cut (grid1.coords t) ((dat1 V c).after 3 t) = _
  rw [after1_3 V c t]
  refine eq_read_ofRows (R := 100000) (B := 2000) (N := 128) _
    (fun n : Fin 100000 => finRow (row (V c main_v27 : S100000x128.Idx → EReal) n) ((V c main_v32 : S100000x1.Idx → EReal) (ix2 n (0 : Fin 1))) (mat (V c main_arg9 : S128x128.Idx → EReal)))
    (fun y => ((cfg1.win 3).blk t).view.emb y) t.val
    (fun y => (emb1_3 t y).1) (fun y => (emb1_3 t y).2) fun r hr => ?_
  refine (hfin _ _ _ r).trans ?_
  rw [row_blk1_0 V c t r hr, blk1_1_apply V c t r hr, blk1_2 V c t]

/-- An index of the outputs' array is in point `t`'s block iff each coordinate is in the block's range on its axis. -/
theorem mem_blk1_3 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v33).slice (win1_3.rect t)).set ↔ _
  rw [View.set_slice_whole, Rect.mem_set_unit]
  exact Iff.rfl

/-- Every index (n, o) of the outputs' array is in the block of point `n / 2000`, which is written back. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, e0, e1⟩ := idx1 t
  refine ⟨t, flush1_3 t, ?_⟩
  rw [mem_blk1_3]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 128 ≤ (i 1).val ∧ (i 1).val < win1_3.index t (1 : Fin 2) * 128 + 128
    rw [e1]; omega

end

/-- The outputs' array after region 1: every block written back is a block of `outs`, and the blocks cover the
    array. -/
theorem arr1_out (hfin : ∀ (y0 : Vec Ideal S2000x128 .f32) (y1 : Vec Ideal S2000x1 .f32) (y2 : Vec Ideal S128x128 .f32) (r : Fin 2000), row (k1_pay1 (F := Ideal) y0 y1 y2) r = finRow (row y0 r) (y1 (ix2 r (0 : Fin 1))) (mat y2))
    (V : (c : Dev nD) → (b : Ref sig .tc) → Buf (Elt Ideal) ((c : Thread nD τ).loc b)) (c : Dev nD) :
    ((dat1 V c).arrAt 3 cfg1.N : S100000x128.Idx → EReal)
      = ofRows (fun n : Fin 100000 => finRow (row (V c main_v27 : S100000x128.Idx → EReal) n) ((V c main_v32 : S100000x1.Idx → EReal) (ix2 n (0 : Fin 1))) (mat (V c main_arg9 : S128x128.Idx → EReal))) :=
  (dat1 V c).arrAt_eq_of_cover 3 (outs V c) (fun t _ => flushed1_eq V hfin c t) cover1

end Cert.KernelIdeal.Hand

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«115480_j34093450396330_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibDotRows.lean ====
/-
  Rows of a plain matrix product, computed a block of rows at a time.

  For a two-dimensional product with one contracted axis and no batch axis, entry (r, k) of the host's general dot
  product is the finite sum Σ j, lhs (r, j) · rhs (j, k) — the same sum that a product into a zero accumulator
  computes. Hence a block of rows of the left operand, multiplied by the whole right operand into the zero
  accumulator, holds exactly the corresponding rows of the whole product: row r of the block's product is row R of
  the whole as soon as row r of the block is row R of the left operand. No entry needs to be finite: the two sides are
  the same sum of the same products, term by term.
-/
import Idealize.ShloMosaic.PureOps.Ideal
import Idealize.ShloMosaic.PureOps.Ideal.Laws
import Idealize.ShloMosaic.Lib.ValueIdx
import proofs.«115480_j34093450396330_1_alg».proof.Proof.LibDotRead

noncomputable section

namespace Cert.DotRows

open Idealize.ShloMosaic Idealize.ShloMosaic.ValueIdx Cert.DotRead

/-- Entry (r, k) of the host's plain product is Σ j, lhs (r, j) · rhs (j, k). -/
theorem hostDot_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    Host.dotGeneral d prec lhs rhs (ix2 r k) = ∑ j : Fin n, lhs (ix2 r j) * rhs (ix2 j k) := by
  simp only [Host.dotGeneral]
  rw [Ideal.dotGeneral_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

/-- Row r of a block's product into the zero accumulator is row R of the whole host product, when row r of the block
    is row R of the whole left operand. The block has b rows, the whole M; both products contract the same n
    coordinates against the same right operand. -/
theorem block_row {M b n p : ℕ} {φ₁ φ₂ : FTy}
    (dK : DotDims ⟨2, ![b, n]⟩ ⟨2, ![n, p]⟩ ⟨2, ![b, p]⟩) (hK : Plain dK)
    (dH : DotDims ⟨2, ![M, n]⟩ ⟨2, ![n, p]⟩ ⟨2, ![M, p]⟩) (hH : Plain dH)
    (precK precH : Option ContractPrecision)
    (blk : FVec Ideal ⟨2, ![b, n]⟩ φ₁) (lhs : FVec Ideal ⟨2, ![M, n]⟩ φ₁) (rhs : FVec Ideal ⟨2, ![n, p]⟩ φ₂)
    (r : Fin b) (R : Fin M) (k : Fin p)
    (hrow : ∀ j : Fin n, blk (ix2 r j) = lhs (ix2 R j)) :
    matmul dK precK blk rhs (constant (F := Ideal) ⟨2, ![b, p]⟩ .f32 0x00000000#32) (ix2 r k)
      = Host.dotGeneral dH precH lhs rhs (ix2 R k) := by
  rw [matmul_zero_apply dK hK, hostDot_apply dH hH]
  exact Finset.sum_congr rfl fun j _ => by rw [hrow j]

end Cert.DotRows

end
-- ==== Proof.KiRowsK.lean ====
/-
  Rows of the two kernel blocks, on the extended reals.

  The first block takes 4000 edges' input rows through three dense layers, the first two followed by x ↦ x · σ(x);
  the second divides 2000 nodes' summed rows entrywise by the node's count floored at one and multiplies by a
  128 × 128 matrix. A change of float format is the identity on the extended reals, a shape cast to the same shape
  changes nothing, and a product into the zero accumulator plus a one-row bias spread over the rows is the dense
  layer of the row. So row r of each block's result is the row function (mlpRow, finRow) of row r of its input.
-/
import proofs.«115480_j34093450396330_1_alg».proof.Proof.Gen.KernelIdeal.Skeleton
import proofs.«115480_j34093450396330_1_alg».proof.Proof.KiSpec
import proofs.«115480_j34093450396330_1_alg».proof.Proof.LibDenseRows
import proofs.«115480_j34093450396330_1_alg».proof.Proof.LibBlockRows
import proofs.«115480_j34093450396330_1_alg».proof.Proof.LibDotRead
import proofs.«115480_j34093450396330_1_alg».proof.Proof.LibDotRows

noncomputable section

namespace Cert.KernelIdeal.Rows

open Cert.KernelIdeal Cert.KernelIdeal.Gen Cert.DenseRows Cert.LibBlockRows Cert.Hand.Spec
open Idealize.ShloMosaic Idealize.ShloMosaic.ValueIdx

/-- Row r of v · σ(v), entry by entry, is x ↦ x · σ(x) of row r of v. -/
theorem row_mul_logistic {R N : ℕ} (v : FVec Ideal ⟨2, ![R, N]⟩ .f32) (r : Fin R) :
    row (mulf v (logistic v)) r = silu (row v r) := rfl

/-- One dense layer of a block: both operands change float format (the identity here), the product is accumulated
    into zeros, and the bias, a one-row matrix cast to its own shape, is spread over the rows. -/
theorem row_block_layer {R K N : ℕ} (d : DotDims ⟨2, ![R, K]⟩ ⟨2, ![K, N]⟩ ⟨2, ![R, N]⟩)
    (hd : d = DotDims.plain R K N) (hlt : FTy.bf16.bits < FTy.f32.bits)
    (a : FVec Ideal ⟨2, ![R, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (r : Fin R) :
    row (addf (matmul d none (truncf .bf16 a hlt) (truncf .bf16 w hlt)
            (constant (F := Ideal) ⟨2, ![R, N]⟩ .f32 0x00000000#32))
          (broadcastTo ⟨2, ![R, N]⟩ (shapeCast ⟨2, ![1, N]⟩ b hc) hb)) r
      = affine (row a r) (mat w) (row b (0 : Fin 1)) := by
  rw [shapeCast_self]
  exact row_matmul_rowbias d hd none (truncf .bf16 a hlt) (truncf .bf16 w hlt) b hb r

/-- Row r of the edge block's result is the message of row r of the block's input: three dense layers, the first two
    followed by x ↦ x · σ(x), with the loaded matrices and the loaded one-row biases. -/
theorem mlp_block_row (x0 : Vec Ideal S4000x258 .f32) (x1 : Vec Ideal S258x64 .f32) (x2 : Vec Ideal S1x64 .f32)
    (x3 : Vec Ideal S64x64 .f32) (x4 : Vec Ideal S1x64 .f32) (x5 : Vec Ideal S64x128 .f32) (x6 : Vec Ideal S1x128 .f32)
    (r : Fin 4000) :
    row (k0_pay1 (F := Ideal) x0 x1 x2 x3 x4 x5 x6) r
      = mlpRow (row x0 r) (mat x1) (row x2 (0 : Fin 1)) (mat x3) (row x4 (0 : Fin 1)) (mat x5) (row x6 (0 : Fin 1)) := by
  refine (row_block_layer _ rfl _ _ x5 x6 _ _ r).trans
    (congrArg (fun h => affine h (mat x5) (row x6 (0 : Fin 1))) ?_)
  refine (row_mul_logistic _ r).trans (congrArg silu ?_)
  refine (row_block_layer _ rfl _ _ x3 x4 _ _ r).trans
    (congrArg (fun h => affine h (mat x3) (row x4 (0 : Fin 1))) ?_)
  refine (row_mul_logistic _ r).trans (congrArg silu ?_)
  refine (row_block_layer _ rfl _ _ x1 x2 _ _ r).trans
    (congrArg (fun h => affine h (mat x1) (row x2 (0 : Fin 1))) ?_)
  exact row_shapeCast_self x0 _ r

/-- Row r of a plain product into the zero accumulator: n ↦ ∑ k, a r k · w k n. -/
theorem row_matmul_zero {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (matmul d prec a w (constant (F := Ideal) ⟨2, ![R, N]⟩ .f32 0x00000000#32)) r
      = fun n => ∑ k : Fin K, row a r k * mat w k n := by
  subst hd
  funext n
  show FloatOps.matmul (DotDims.plain R K N) prec a w (constant (F := Ideal) ⟨2, ![R, N]⟩ .f32 0x00000000#32) (ix2 r n)
      = _
  rw [Ideal.matmul_constant_zero_apply, plain_contr_sum]
  rfl

/-- Row r of the node block's result is row r of the summed messages divided entrywise by the row's count floored at
    one, times the loaded matrix. -/
theorem fin_block_row (y0 : Vec Ideal S2000x128 .f32) (y1 : Vec Ideal S2000x1 .f32) (y2 : Vec Ideal S128x128 .f32)
    (r : Fin 2000) :
    row (k1_pay1 (F := Ideal) y0 y1 y2) r = finRow (row y0 r) (y1 (ix2 r (0 : Fin 1))) (mat y2) := by
  refine (row_matmul_zero _ rfl none _ _ r).trans ?_
  funext o
  refine Finset.sum_congr rfl fun k _ => ?_
  show Ideal.div (shapeCast S2000x128 y0 shapeCasts_S2000x128_S2000x128 (ix2 r k))
        (broadcastTo S2000x128
          (maximumf (shapeCast S2000x1 y1 shapeCasts_S2000x1_S2000x1)
            (broadcast S2000x1 (FloatOps.ofBits (F := Ideal) FTy.f32 0x3F800000#32)))
          broadcasts_S2000x1_S2000x128 (ix2 r k))
      * y2 (ix2 k o) = _
  rw [column_spread, shapeCast_self, shapeCast_self]
  rfl

end Cert.KernelIdeal.Rows

end
-- ==== Proof.KiRowsR.lean ====
/-
  Rows of the reference's two dense stages, on the extended reals.

  The reference computes every edge's message on whole arrays: three dense layers (a general dot product plus the
  bias broadcast in dimension twice), the first two followed by x ↦ x · (1 / (1 + e^(-x))) with the ones spelt as
  rank-zero constants broadcast over the array; and every node's output as the summed messages divided entrywise by
  the node's count floored at one (the floored count broadcast in dimension twice) times a 128 × 128 matrix. Each
  result row depends on the matching input row alone, so each stage is the array whose row e (or n) is the row
  function (mlpRow, finRow) of row e (or n) of the stage it starts from.
-/
import proofs.«115480_j34093450396330_1_alg».proof.Proof.Gen.ReferenceIdeal.Read
import proofs.«115480_j34093450396330_1_alg».proof.Proof.KiSpec
import proofs.«115480_j34093450396330_1_alg».proof.Proof.LibDenseRows
import proofs.«115480_j34093450396330_1_alg».proof.Proof.LibDotRead
import proofs.«115480_j34093450396330_1_alg».proof.Proof.LibDotRows
import Idealize.ShloMosaic.Lib.IdealHost

noncomputable section

namespace Cert.ReferenceIdeal.Rows

open Cert.ReferenceIdeal Cert.ReferenceIdeal.Read Cert.DenseRows Cert.Hand.Spec
open Idealize.ShloMosaic Idealize.ShloMosaic.ValueIdx

/-- Row r of v · (1 / (1 + e^(-v))), the two ones rank-zero constants (the f32 word for one) broadcast over the
    array, is x ↦ x · σ(x) of row r of v. -/
theorem row_mul_sigmoid {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (r : Fin R) :
    row (mulf v (Host.divf
          (broadcastInDim ⟨2, ![R, N]⟩ dims h (constant (F := Ideal) ⟨0, ![]⟩ .f32 0x3F800000#32))
          (addf (broadcastInDim ⟨2, ![R, N]⟩ dims h (constant (F := Ideal) ⟨0, ![]⟩ .f32 0x3F800000#32))
            (Host.exp (Host.negf v))))) r
      = silu (row v r) := by
  funext n
  show v (ix2 r n) * Ideal.div
        (broadcastInDim ⟨2, ![R, N]⟩ dims h (constant (F := Ideal) ⟨0, ![]⟩ .f32 0x3F800000#32) (ix2 r n))
        (broadcastInDim ⟨2, ![R, N]⟩ dims h (constant (F := Ideal) ⟨0, ![]⟩ .f32 0x3F800000#32) (ix2 r n)
          + Ideal.exp (-(v (ix2 r n))))
      = v (ix2 r n) * Ideal.logistic (v (ix2 r n))
  rw [splat_apply]
  show v (ix2 r n) * Ideal.div (Ideal.ofBits .f32 0x3F800000#32)
        (Ideal.ofBits .f32 0x3F800000#32 + Ideal.exp (-(v (ix2 r n)))) = _
  rw [Ideal.ofBits_one_f32]
  rfl

/-- The reference's message array is, row by row, the message of the matching row of its concatenated input. -/
theorem ref_msgs_rows (x0 : (⟨S100000x128, .f32⟩ : BufTy).Contents (Elt Ideal)) (x1 : (⟨S3x1000000, .i32⟩ : BufTy).Contents (Elt Ideal)) (x2 : (⟨S1000000x2, .f32⟩ : BufTy).Contents (Elt Ideal)) (x3 : (⟨S258x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) :
    val_main_v34 (F := Ideal) x0 x1 x2 x3 x4 x5 x6 x7 x8
      = ofRows (fun e : Fin 1000000 => mlpRow (row (val_main_v20 (F := Ideal) x0 x1 x2) e) (mat x3) (vec x4)
          (mat x5) (vec x6) (mat x7) (vec x8)) := by
  refine eq_ofRows _ _ fun e => ?_
  unfold val_main_v34 val_main_v33 val_main_v32 val_main_v31 val_main_v30
    val_main_call1_v5 val_main_call1_v4 val_main_call1_cst_0 val_main_call1_v3 val_main_call1_v2 val_main_call1_cst
    val_main_call1_v1 val_main_call1_v0 val_main_v29 val_main_v28 val_main_v27 val_main_v26 val_main_v25
    val_main_call0_v5 val_main_call0_v4 val_main_call0_cst_0 val_main_call0_v3 val_main_call0_v2 val_main_call0_cst
    val_main_call0_v1 val_main_call0_v0 val_main_v24 val_main_v23 val_main_v22 val_main_v21
  generalize val_main_v20 (F := Ideal) x0 x1 x2 = A
  refine (row_dotGeneral_bias _ rfl none _ x7 x8 _ _ e).trans
    (congrArg (fun h => affine h (mat x7) (vec x8)) ?_)
  refine (row_mul_sigmoid _ _ _ e).trans (congrArg silu ?_)
  refine (row_dotGeneral_bias _ rfl none _ x5 x6 _ _ e).trans
    (congrArg (fun h => affine h (mat x5) (vec x6)) ?_)
  refine (row_mul_sigmoid _ _ _ e).trans (congrArg silu ?_)
  exact row_dotGeneral_bias _ rfl none A x3 x4 _ _ e

/-- Row r of the host's plain product: n ↦ ∑ k, a r k · w k n. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w) r = fun n => ∑ k : Fin K, row a r k * mat w k n := by
  subst hd
  funext n
  show FloatOps.dotGeneral (DotDims.plain R K N) prec .single a w (ix2 r n) = _
  rw [Ideal.dotGeneral_apply, plain_contr_sum]
  rfl

/-- An [R] array broadcast in dimension to a column [R, 1] (its axis the first) and then to [R, N] reads, at
    (r, n), the array at r. -/
theorem columnTwice_apply {α : Type} {R N : ℕ} (c : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, N]⟩ ![0, 1]) (r : Fin R) (n : Fin N) :
    broadcastInDim ⟨2, ![R, N]⟩ ![0, 1] h2 (broadcastInDim ⟨2, ![R, 1]⟩ ![0] h1 c) (ix2 r n) = c (ix1 r) := by
  have hR : r.val = if R = 1 then 0 else r.val := by
    split
    · have := r.isLt; omega
    · rfl
  rw [broadcastInDim_apply ![0, 1] h2 _ (ix2 r n) (ix2 r (0 : Fin 1)) (fun a => by
      match a with
      | ⟨0, _⟩ => exact hR
      | ⟨1, _⟩ => rfl),
    broadcastInDim_apply ![0] h1 c (ix2 r (0 : Fin 1)) (ix1 r) (fun a => by
      match a with
      | ⟨0, _⟩ => exact hR)]

/-- Row r of s divided entrywise by a per-row count floored at a rank-zero constant, the floored count broadcast in
    dimension to a column and then over the lanes: every entry of row r of s divided by the one floored count. -/
theorem row_div_flooredCount {R N : ℕ} (s : FVec Ideal ⟨2, ![R, N]⟩ .f32) (cn : FVec Ideal ⟨1, ![R]⟩ .f32)
    (wd : BitVec FTy.f32.bits) (dims : Fin (⟨0, ![]⟩ : Shape).rank → Fin (⟨1, ![R]⟩ : Shape).rank)
    (h0 : (⟨0, ![]⟩ : Shape).BroadcastsInDim ⟨1, ![R]⟩ dims)
    (h1 : (⟨1, ![R]⟩ : Shape).BroadcastsInDim ⟨2, ![R, 1]⟩ ![0])
    (h2 : (⟨2, ![R, 1]⟩ : Shape).BroadcastsInDim ⟨2, ![R, N]⟩ ![0, 1]) (r : Fin R) :
    row (Host.divf s (broadcastInDim ⟨2, ![R, N]⟩ ![0, 1] h2 (broadcastInDim ⟨2, ![R, 1]⟩ ![0] h1
          (maximumf cn (broadcastInDim ⟨1, ![R]⟩ dims h0 (constant (F := Ideal) ⟨0, ![]⟩ .f32 wd)))))) r
      = fun k => Ideal.div (row s r k) (max (cn (ix1 r)) (Ideal.ofBits .f32 wd)) := by
  funext k
  show Ideal.div (s (ix2 r k))
        (broadcastInDim ⟨2, ![R, N]⟩ ![0, 1] h2 (broadcastInDim ⟨2, ![R, 1]⟩ ![0] h1
          (maximumf cn (broadcastInDim ⟨1, ![R]⟩ dims h0 (constant (F := Ideal) ⟨0, ![]⟩ .f32 wd)))) (ix2 r k)) = _
  rw [columnTwice_apply]
  show Ideal.div (s (ix2 r k))
        (max (cn (ix1 r)) (broadcastInDim ⟨1, ![R]⟩ dims h0 (constant (F := Ideal) ⟨0, ![]⟩ .f32 wd) (ix1 r))) = _
  rw [splat_apply]
  rfl

/-- The reference's output array is, row by row, the matching row of the summed messages divided entrywise by the node's
    count floored at one, times the output matrix. -/
theorem ref_out_rows (x0 : (⟨S100000x128, .f32⟩ : BufTy).Contents (Elt Ideal)) (x1 : (⟨S3x1000000, .i32⟩ : BufTy).Contents (Elt Ideal)) (x2 : (⟨S1000000x2, .f32⟩ : BufTy).Contents (Elt Ideal)) (x3 : (⟨S258x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) :
    val_main_v47 (F := Ideal) x0 x1 x2 x3 x4 x5 x6 x7 x8 x9
      = ofRows (fun n : Fin 100000 => finRow (row (val_main_v37 (F := Ideal) x0 x1 x2 x3 x4 x5 x6 x7 x8) n)
          (val_main_v41 (F := Ideal) x1 (ix1 n)) (mat x9)) := by
  refine eq_ofRows _ _ fun n => ?_
  unfold val_main_v47 val_main_v46 val_main_v45 val_main_v44 val_main_v43 val_main_v42 val_main_cst_5
  generalize val_main_v37 (F := Ideal) x0 x1 x2 x3 x4 x5 x6 x7 x8 = S
  generalize val_main_v41 (F := Ideal) x1 = cn
  refine (row_dotGeneral _ rfl none _ x9 n).trans ?_
  funext o
  refine Finset.sum_congr rfl fun k _ => ?_
  exact congrArg (fun t => t * mat x9 k o) (congrFun (row_div_flooredCount S cn _ _ _ _ _ n) k)

end Cert.ReferenceIdeal.Rows

end
-- ==== Proof.KiBridge.lean ====
/-
  The kernel program's result array is the reference's.

  The result buffer ends at what the node-update region's write-backs leave: row n is the node update of row n of the
  summed messages, the count of n, and the last matrix. The summed messages are the scatter-add, by the middle index
  row, of the edge-network region's output, whose row e is the edge network of row e of the edge features and the
  six weight arrays. The edge features, the index row, the counts and the weights are the reference's stages of the
  same arguments, and the reference's messages and result have the same rows. So the two result arrays are one.
-/
import proofs.«115480_j34093450396330_1_alg».proof.Proof.KiHost
import proofs.«115480_j34093450396330_1_alg».proof.Proof.KiRun
import proofs.«115480_j34093450396330_1_alg».proof.Proof.KiSpec
import proofs.«115480_j34093450396330_1_alg».proof.Proof.LibDenseRows
import proofs.«115480_j34093450396330_1_alg».proof.Proof.LibColumnCast
import proofs.«115480_j34093450396330_1_alg».proof.Proof.KiArr0
import proofs.«115480_j34093450396330_1_alg».proof.Proof.KiArr1
import proofs.«115480_j34093450396330_1_alg».proof.Proof.KiRowsK
import proofs.«115480_j34093450396330_1_alg».proof.Proof.KiRowsR

noncomputable section

namespace Cert.KernelIdeal.Hand

open Cert.KernelIdeal Cert.KernelIdeal.Gen Cert.DenseRows Cert.Hand.Spec Cert.ColumnCast
open Idealize.ShloMosaic Idealize.ShloMosaic.TcCoe Idealize.ShloMosaic.ValueIdx Idealize.SL.Sem

variable (m : (ℓ : Loc nD τ sig) → Buf (Elt Ideal) ℓ)

/-- The edge-network region's output array is the reference's messages. -/
theorem msgs_eq (c : Dev nD) :
    Hand.W2 m c (Proc.devRef .tc main_v24)
      = Cert.ReferenceIdeal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  refine (W2_arr m c 7).trans ((arr0_msgs Cert.KernelIdeal.Rows.mlp_block_row (Hand.V1 m) c).trans ?_)
  rw [Cert.ReferenceIdeal.Rows.ref_msgs_rows, V1_main_v20, V1_main_v21, V1_main_v22, V1_main_v23,
    V1_arg m c main_arg3 (by decide), V1_arg m c main_arg5 (by decide), V1_arg m c main_arg7 (by decide)]
  refine congrArg ofRows (funext fun e => ?_)
  show mlpRow _ _ (fun n => shapeCast S1x64 _ shapeCasts_S64_S1x64 (ix2 (0 : Fin 1) n)) _
      (fun n => shapeCast S1x64 _ shapeCasts_S64_S1x64 (ix2 (0 : Fin 1) n)) _
      (fun n => shapeCast S1x128 _ shapeCasts_S128_S1x128 (ix2 (0 : Fin 1) n)) = _
  rw [shapeCast_a_1a_row, shapeCast_a_1a_row, shapeCast_a_1a_row]
  rfl

/-- The result buffer at @main's end is the reference's result. -/
theorem result_eq (c : Dev nD) :
    Hand.W4 m c (Proc.devRef .tc main_v33)
      = Cert.ReferenceIdeal.Read.val_main_v47 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (W4_arr m c 3).trans ((arr1_out Cert.KernelIdeal.Rows.fin_block_row (Hand.V3 m) c).trans ?_)
  rw [Cert.ReferenceIdeal.Rows.ref_out_rows, V3_main_v27, V3_main_v32, msgs_eq,
    V3_keeps m c main_arg9 (by decide) (by decide), V1_arg m c main_arg9 (by decide)]
  refine congrArg ofRows (funext fun n => ?_)
  rw [shapeCast_a_a1_apply]
  rfl

/-- The run of the idealized kernel program with its result named: the result buffer ends at `W4`'s contents and every
    argument array as launched. -/
theorem run_named (ρ : Dev nD → PrngReg) :
    θ_run defs (onTc (τ := τ) (main (F := Ideal))) ⟨m, fun _ => 0, ρ⟩ (fun r => ∀ c : Dev nD,
      r.2.mem ((c.tc : Thread nD τ).loc main_v33) = Hand.W4 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      h c _ (mem_uc main_v33 (by decide)),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c)⟩) (run_bufs m ρ)

end Cert.KernelIdeal.Hand

end
-- ==== Proof.lean ====
/-
  The certificate of one graph message-passing layer: a Pallas kernel program against its jnp reference.

  Per edge e, the 258 features a[e] — the rows of x at the edge's two end nodes joined with the edge's two attributes
  — pass through three dense layers, the first two followed by x ↦ x · σ(x); the messages are summed per middle node,
  divided by the node's message count floored at one, and multiplied by a 128 × 128 matrix. The kernel program runs
  the edge network a block of 4000 edges at a time and the node update a block of 2000 nodes at a time, as two
  pipelined regions among host operations; the reference runs both on whole arrays. The gathers, the join, and the
  two scatter-adds are the same host operations in both programs.

  Frames: each kernel program is its four segments (host stretch, region, host stretch, region) launched once; the
  reference is a list of host operations. Equivalence at the extended reals: every result row depends on the matching
  input row alone, a matrix product accumulated into zeros is the reference's product entry by entry, and σ as one
  operation is σ spelt 1 / (1 + e^(-x)); so each region's output array, assembled from its blocks, is the reference's
  array of the same stage. No entry needs to be finite. The idealization rewrote nothing, so its conjunct is trivial.
-/
import proofs.«115480_j34093450396330_1_alg».proof.Defs
import proofs.«115480_j34093450396330_1_alg».proof.Proof.Gen.Kernel
import proofs.«115480_j34093450396330_1_alg».proof.Proof.Gen.Kernel.Skeleton
import proofs.«115480_j34093450396330_1_alg».proof.Proof.Gen.Kernel.Launch
import proofs.«115480_j34093450396330_1_alg».proof.Proof.Gen.Kernel.Regions
import proofs.«115480_j34093450396330_1_alg».proof.Proof.Gen.Kernel.Points
import proofs.«115480_j34093450396330_1_alg».proof.Proof.Gen.KernelIdeal
import proofs.«115480_j34093450396330_1_alg».proof.Proof.Gen.KernelIdeal.Skeleton
import proofs.«115480_j34093450396330_1_alg».proof.Proof.Gen.KernelIdeal.Launch
import proofs.«115480_j34093450396330_1_alg».proof.Proof.Gen.KernelIdeal.Regions
import proofs.«115480_j34093450396330_1_alg».proof.Proof.Gen.KernelIdeal.Points
import proofs.«115480_j34093450396330_1_alg».proof.Proof.Gen.ReferenceIdeal
import proofs.«115480_j34093450396330_1_alg».proof.Proof.Gen.ReferenceIdeal.Run
import proofs.«115480_j34093450396330_1_alg».proof.Proof.Gen.ReferenceIdeal.Read
import proofs.«115480_j34093450396330_1_alg».proof.Proof.Gen.Pre_finite_inputs
import proofs.«115480_j34093450396330_1_alg».proof.Proof.KbRun
import proofs.«115480_j34093450396330_1_alg».proof.Proof.KiRun
import proofs.«115480_j34093450396330_1_alg».proof.Proof.KiBridge
import Idealize.ShloMosaic.Adequacy
import Idealize.ShloMosaic.Init

noncomputable section

namespace Cert.Proof

open Idealize.ShloMosaic Idealize.SL.Sem Cert.Kernel

/-- The word-level kernel program runs and leaves its arguments as launched. -/
theorem frame_kernel [Cert.Kernel.Facts] [Cert.Pre_finite_inputs.Facts] : Cert.frame_Kernel :=
  fun m ρ _ => Cert.Kernel.Hand.frame (F := Bits) m ρ

/-- So does the idealized kernel program. -/
theorem frame_kernelIdeal [Cert.KernelIdeal.Facts] [Cert.Pre_finite_inputs.Facts] : Cert.frame_KernelIdeal :=
  fun m ρ _ => Cert.KernelIdeal.Hand.frame (F := Ideal) m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both programs run to the end, the arguments unchanged, and the kernel
    program's result array is the reference's: the result buffer holds the node-update region's output, which is the
    reference's last stage of the same arguments. The precondition is never opened: no step needs an entry finite. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Hand.W4 m c (Proc.devRef .tc Cert.KernelIdeal.main_v33), Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
